-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x1x2048 : Shape := ⟨3, ![8, 1, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v13 main_v17
  main_v18

def fn {F : FTy → Type} [FloatOps F] (main_arg0 : FVec F S8x4096x2048 .f32) (main_arg1 : FVec F S8x4096x2048 .f32) (main_arg2 : FVec F S8x1x2048 .f32) (main_arg3 : FVec F S8x1x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  let main_v9 : FVec F S8x1x2048 .f32 := Host.absf main_arg2
  let main_cst_2 : FVec F S_ .f32 := constant S_ .f32 0x7F800000#32
  let main_v10 : FVec F S8x1x2048 .f32 := broadcastInDim S8x1x2048 ![] bcast_S_S8x1x2048 main_cst_2
  let main_v11 : IVec S8x1x2048 1 := cmpf .olt main_v9 main_v10
  let main_c_3 : IVec S_ 1 := constantI S_ 1 1#1
  let main_v12 : IVec S_ 1 := (fun x v => Host.reduce IntOp.andi x v reducesTo_S8x1x2048_S_d0_1_2 h_S_) main_v11 main_c_3
  let main_v13 : IVec S_ 1 := andi main_v8 main_v12
  let main_v14 : FVec F S8x1x2048 .f32 := Host.absf main_arg3
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v13 main_v16
-- ==== Kernel.lean ====
abbrev S8x4096x2048 : Shape := ⟨3, ![8, 4096, 2048]⟩
abbrev S8x1x2048 : Shape := ⟨3, ![8, 1, 2048]⟩
abbrev S8x4097x2048 : Shape := ⟨3, ![8, 4097, 2048]⟩
abbrev S1x512x2048 : Shape := ⟨3, ![1, 512, 2048]⟩
abbrev S8x8x2048 : Shape := ⟨3, ![8, 8, 2048]⟩
abbrev S8x7x2048 : Shape := ⟨3, ![8, 7, 2048]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x1x2048, .f32⟩
  | .hbm, ⟨3, _⟩ => ⟨S8x1x2048, .f32⟩
  | .hbm, ⟨4, _⟩ => ⟨S8x4097x2048, .f32⟩
  | .hbm, ⟨5, _⟩ => ⟨S8x4097x2048, .f32⟩
  | .hbm, ⟨6, _⟩ => ⟨S8x4097x2048, .f32⟩
  | .hbm, ⟨7, _⟩ => ⟨S8x4097x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S8x1x2048, .f32⟩
  | .local _ .vmem, ⟨9, _⟩ => ⟨S8x1x2048, .f32⟩
  | .local _ .vmem, ⟨10, _⟩ => ⟨S8x8x2048, .f32⟩
  | .local _ .vmem, ⟨11, _⟩ => ⟨S8x8x2048, .f32⟩
  | .local _ .vmem, ⟨12, _⟩ => ⟨S8x8x2048, .f32⟩
  | .local _ .vmem, ⟨13, _⟩ => ⟨S8x8x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c512_i32 : BitVec 32 := 512#32
  let c0_i32_0 : BitVec 32 := 0#32
  let c0_i32_1 : BitVec 32 := 0#32
  ![c0_i32.toNat, c512_i32.toNat, c0_i32_0.toNat]

def cc1_transform_3 (i : grid1.Coords) : Fin 3 → Nat :=
  let arg0 : BitVec 32 := BitVec.ofNat 32 (i 0).val
  let c0_i32 : BitVec 32 := 0#32
  let c512_i32 : BitVec 32 := 512#32
  let c0_i32_0 : BitVec 32 := 0#32
  let c0_i32_1 : BitVec 32 := 0#32
  ![c0_i32.toNat, c512_i32.toNat, c0_i32_0.toNat]

def cc1_transform_4 (i : grid1.Coords) : Fin 3 → Nat :=
  let arg0 : BitVec 32 := BitVec.ofNat 32 (i 0).val
  let c0_i32 : BitVec 32 := 0#32
  let c512_i32 : BitVec 32 := 512#32
  let c0_i32_0 : BitVec 32 := 0#32
  let c0_i32_1 : BitVec 32 := 0#32
  ![c0_i32.toNat, c512_i32.toNat, c0_i32_0.toNat]

def cc1_transform_5 (i : grid1.Coords) : Fin 3 → Nat :=
  let arg0 : BitVec 32 := BitVec.ofNat 32 (i 0).val
  let c0_i32 : BitVec 32 := 0#32
  let c512_i32 : BitVec 32 := 512#32
  let c0_i32_0 : BitVec 32 := 0#32
  let c0_i32_1 : BitVec 32 := 0#32
  ![c0_i32.toNat, c512_i32.toNat, c0_i32_0.toNat]

abbrev stage1_0 : Fin 1 → Memref sig .tc .vmem S8x1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x8x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x8x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  inb_S8x1x2048_S8x1x2048_0_0_0 : ∀ a, (![0, 0, 0] : Fin 3 → Nat) a + S8x1x2048.size a ≤ S8x1x2048.size a
  h_S8x1x2048 : 0 < S8x1x2048.numel
  inb_S8x8x2048_S8x1x2048_0_0_0 : ∀ a, (![0, 0, 0] : Fin 3 → Nat) a + S8x1x2048.size a ≤ S8x8x2048.size a
  shapeCasts_S8x1x2048_S8x1x2048 : S8x1x2048.ShapeCasts S8x1x2048
  broadcasts_S8x1x2048_S8x7x2048 : S8x1x2048.Broadcasts S8x7x2048
  inb_S8x8x2048_S8x7x2048_0_1_0 : ∀ a, (![0, 1, 0] : Fin 3 → Nat) a + S8x7x2048.size a ≤ S8x8x2048.size a
  h_S8x7x2048 : 0 < S8x7x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x4096x2048.size a
  hwx0_1 : ∀ i : grid0.Coords, EltTy.bits .f32 = 32 ∨ (Rect.block (s := S8x4096x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512x2048.size a < S8x4097x2048.size a
  hwx0_2 : ∀ i : grid0.Coords, EltTy.bits .f32 = 32 ∨ (Rect.unit (s := S8x4097x2048) (fun a => cc0_transform_2 i a * S1x512x2048.size a) (fun a => (Pipeline.Clip.of (cc0_transform_2 i a) (S1x512x2048.size a) (S8x4097x2048.size a)).extent (S1x512x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x512x2048) (fun _ => 0) (fun a => (Pipeline.Clip.of (cc0_transform_2 i a) (S1x512x2048.size a) (S8x4097x2048.size a)).extent (S1x512x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512x2048.size a < S8x4097x2048.size a
  hwx0_3 : ∀ i : grid0.Coords, EltTy.bits .f32 = 32 ∨ (Rect.unit (s := S8x4097x2048) (fun a => cc0_transform_3 i a * S1x512x2048.size a) (fun a => (Pipeline.Clip.of (cc0_transform_3 i a) (S1x512x2048.size a) (S8x4097x2048.size a)).extent (S1x512x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x512x2048) (fun _ => 0) (fun a => (Pipeline.Clip.of (cc0_transform_3 i a) (S1x512x2048.size a) (S8x4097x2048.size a)).extent (S1x512x2048.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x1x2048.size a ≤ S8x1x2048.size a
  hwx1_0 : ∀ i : grid1.Coords, EltTy.bits .f32 = 32 ∨ (Rect.block (s := S8x1x2048) S8x1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x1x2048.size a ≤ S8x1x2048.size a
  hwx1_1 : ∀ i : grid1.Coords, EltTy.bits .f32 = 32 ∨ (Rect.block (s := S8x1x2048) S8x1x2048.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hstart1_2 : ∀ (i : grid1.Coords) a, cc1_transform_2 i a * S8x8x2048.size a < S8x4097x2048.size a
  hwx1_2 : ∀ i : grid1.Coords, EltTy.bits .f32 = 32 ∨ (Rect.unit (s := S8x4097x2048) (fun a => cc1_transform_2 i a * S8x8x2048.size a) (fun a => (Pipeline.Clip.of (cc1_transform_2 i a) (S8x8x2048.size a) (S8x4097x2048.size a)).extent (S8x8x2048.size a)) fun a => Pipeline.Clip.inb (Pipeline.Clip.ok_of (hstart1_2 i a))).WholeWords (EltTy.packing .f32)
  hwxs1_2 : ∀ i : grid1.Coords, EltTy.bits .f32 = 32 ∨ (Rect.unit (s := S8x8x2048) (fun _ => 0) (fun a => (Pipeline.Clip.of (cc1_transform_2 i a) (S8x8x2048.size a) (S8x4097x2048.size a)).extent (S8x8x2048.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hstart1_3 : ∀ (i : grid1.Coords) a, cc1_transform_3 i a * S8x8x2048.size a < S8x4097x2048.size a
  hwx1_3 : ∀ i : grid1.Coords, EltTy.bits .f32 = 32 ∨ (Rect.unit (s := S8x4097x2048) (fun a => cc1_transform_3 i a * S8x8x2048.size a) (fun a => (Pipeline.Clip.of (cc1_transform_3 i a) (S8x8x2048.size a) (S8x4097x2048.size a)).extent (S8x8x2048.size a)) fun a => Pipeline.Clip.inb (Pipeline.Clip.ok_of (hstart1_3 i a))).WholeWords (EltTy.packing .f32)
  hwxs1_3 : ∀ i : grid1.Coords, EltTy.bits .f32 = 32 ∨ (Rect.unit (s := S8x8x2048) (fun _ => 0) (fun a => (Pipeline.Clip.of (cc1_transform_3 i a) (S8x8x2048.size a) (S8x4097x2048.size a)).extent (S8x8x2048.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hstart1_4 : ∀ (i : grid1.Coords) a, cc1_transform_4 i a * S8x8x2048.size a < S8x4097x2048.size a
  hwx1_4 : ∀ i : grid1.Coords, EltTy.bits .f32 = 32 ∨ (Rect.unit (s := S8x4097x2048) (fun a => cc1_transform_4 i a * S8x8x2048.size a) (fun a => (Pipeline.Clip.of (cc1_transform_4 i a) (S8x8x2048.size a) (S8x4097x2048.size a)).extent (S8x8x2048.size a)) fun a => Pipeline.Clip.inb (Pipeline.Clip.ok_of (hstart1_4 i a))).WholeWords (EltTy.packing .f32)
  hwxs1_4 : ∀ i : grid1.Coords, EltTy.bits .f32 = 32 ∨ (Rect.unit (s := S8x8x2048) (fun _ => 0) (fun a => (Pipeline.Clip.of (cc1_transform_4 i a) (S8x8x2048.size a) (S8x4097x2048.size a)).extent (S8x8x2048.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hstart1_5 : ∀ (i : grid1.Coords) a, cc1_transform_5 i a * S8x8x2048.size a < S8x4097x2048.size a
  hwx1_5 : ∀ i : grid1.Coords, EltTy.bits .f32 = 32 ∨ (Rect.unit (s := S8x4097x2048) (fun a => cc1_transform_5 i a * S8x8x2048.size a) (fun a => (Pipeline.Clip.of (cc1_transform_5 i a) (S8x8x2048.size a) (S8x4097x2048.size a)).extent (S8x8x2048.size a)) fun a => Pipeline.Clip.inb (Pipeline.Clip.ok_of (hstart1_5 i a))).WholeWords (EltTy.packing .f32)
  hwxs1_5 : ∀ i : grid1.Coords, EltTy.bits .f32 = 32 ∨ (Rect.unit (s := S8x8x2048) (fun _ => 0) (fun a => (Pipeline.Clip.of (cc1_transform_5 i a) (S8x8x2048.size a) (S8x4097x2048.size a)).extent (S8x8x2048.size a)) fun a => (Nat.zero_add _).trans_le (Pipeline.Clip.extent_le (Pipeline.Clip.ok_of (hstart1_5 i a)))).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v0_0) S1x512x2048.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0_1) S1x512x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8x1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8x1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v0_0) S8x8x2048.size cc1_transform_2 reads1_2 false false 1 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v0_1) S8x8x2048.size cc1_transform_3 reads1_3 false false 1 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v1_0) S8x8x2048.size cc1_transform_4 reads1_4 true false 1 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v1_1) S8x8x2048.size cc1_transform_5 reads1_5 true false 1 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_4 : Pipeline.Aliased win1 2 4
  halias1_5 : Pipeline.Aliased win1 3 5

variable [Facts]
-- ==== ReferenceIdeal.lean ====
abbrev S8x4096x2048 : Shape := ⟨3, ![8, 4096, 2048]⟩
abbrev S8x1x2048 : Shape := ⟨3, ![8, 1, 2048]⟩
abbrev S8x4097x2048 : Shape := ⟨3, ![8, 4097, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S8x1x2048, .f32⟩
  | .hbm, ⟨3, _⟩ => ⟨S8x1x2048, .f32⟩
  | .hbm, ⟨4, _⟩ => ⟨S8x4097x2048, .f32⟩
  | .hbm, ⟨5, _⟩ => ⟨S8x4097x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S8x4096x2048_S8x1x2048_S8x4097x2048_d1 : Shape.Concatenates [S8x4096x2048, S8x1x2048] S8x4097x2048 1

variable [Facts₀]

class Facts : Prop extends Facts₀ where

variable [Facts]
-- ==== Proof.BitsBulkCopy.lean ====
/-
  The first pallas_call copies the two caches block by block. Its grid is 8 × 8; at point (b, s) it fetches rows
  512·s … 512·s + 511 of batch b of each cache into a staging buffer, the body stores that block unchanged into the
  matching output staging buffer, and the write-back lands it on the same rows of batch b of a [8, 4097, 2048] array.
  Stated here, at any contents `V` the call is entered from: each input block at a point, what the body leaves in the
  four staging buffers (the two input blocks, twice), the body's triple, and the per-point obligation of the pipeline.
  The output blocks never reach the last row of their arrays, so nothing here depends on where an array ends.
-/
import proofs.«107883_j56667798503562_2_alg».proof.Proof.Gen.Kernel.Launch
import proofs.«107883_j56667798503562_2_alg».proof.Proof.Gen.Kernel.Skeleton
import proofs.«107883_j56667798503562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bulk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole staging block, as the rectangle the body loads and stores through. -/
abbrev whole : Rect S1x512x2048 := Rect.unit (s := S1x512x2048) ![0, 0, 0] S1x512x2048.size inb_S1x512x2048_S1x512x2048_0_0_0

/-- What one store of a loaded block leaves in an output staging buffer: the block. -/
def copied (x : Vec F S1x512x2048 .f32) : Vec F S1x512x2048 .f32 :=
  View.canon [⟨whole, View.ld x whole⟩]

/-- The one store covers the buffer. -/
theorem copied_cover (p : Vec F S1x512x2048 .f32) (y : S1x512x2048.Idx) :
    ∃ pc ∈ ([⟨whole, p⟩] : List (View.Piece (Elt F) S1x512x2048 .f32)), y ∈ pc.1.set :=
  View.cover_of_tiled [⟨whole, p⟩] S1x512x2048.size (by rfl) y

set_option maxHeartbeats 1000000 in
/-- The body on whole staging memrefs: the two input buffers at `x0`, `x1`, the two output buffers at anything;
    it ends with the inputs as they were and each output holding its input's block. -/
theorem body_copies (c : Dev nD) (E : Set ℕ) (i : grid0.Coords)
    (a2 : Memref sig .tc .vmem S1x512x2048 .f32) (h2 : a2.IsWhole) (a3 : Memref sig .tc .vmem S1x512x2048 .f32) (h3 : a3.IsWhole)
    (a4 : Memref sig .tc .vmem S1x512x2048 .f32) (h4 : a4.IsWhole) (a5 : Memref sig .tc .vmem S1x512x2048 .f32) (h5 : a5.IsWhole)
    (x0 x1 : Vec F S1x512x2048 .f32) (K : PUnit → sProp 𝕄) :
    iprop(owns (c : Thread nD τ) a2 fullShare x0 ∗ owns (c : Thread nD τ) a3 fullShare x1
        ∗ (∃ d, owns (c : Thread nD τ) a4 fullShare d) ∗ (∃ d, owns (c : Thread nD τ) a5 fullShare d)
        ∗ (iprop(owns (c : Thread nD τ) a2 fullShare x0 ∗ owns (c : Thread nD τ) a3 fullShare x1
            ∗ owns (c : Thread nD τ) a4 fullShare (copied x0) ∗ owns (c : Thread nD τ) a5 fullShare (copied x1)) -∗ K ⟨⟩))
      ⊢ wp frame (wpE (defs₀ (F := F)) Variants.none c none) E (cc0__bulk_copy_kernel i a2 h2 a3 h3 a4 h4 a5 h5) K := by
  simp only [cc0__bulk_copy_kernel_eq_skeleton]; unfold cc0__bulk_copy_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (copied_cover _)
  · iexists _; isplitr
    swap; · iexact H3
    ipureintro
    exact View.read_writes_eq_canon _ _ _ (copied_cover _)

/-! ## The proof data of the call -/

/-- On core `c`: the arrays as the call finds them; after the body at point `t` each input buffer holds its block
    and each output buffer that block copied; nothing of the body's own is kept between points; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => copied (blockAt V c 0 t)
    | ⟨3, _⟩ => copied (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = copied (blockAt V c 0 t) := by dsimp only [dat]
theorem after_3 (c : Dev nD) (t : Fin cfg0.N) : (dat V c).after 3 t = copied (blockAt V c 1 t) := by dsimp only [dat]

/-- An input buffer holds its block when the body runs: the window is fetched at every point and its blocks tile
    the cache, so the fetch fills the whole buffer. -/
theorem before_0 (c : Dev nD) (t : Fin cfg0.N) (d) : (dat V c).before 0 t d = blockAt V c 0 t :=
  ((dat V c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat V c).before 1 t d = blockAt V c 1 t :=
  ((dat V c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The per-point obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_copies c Set.univ _ _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.Kernel.Bulk

end
-- ==== Proof.BitsTailRow.lean ====
/-
  The second pallas_call has one grid point. It fetches the two projection rows k_proj, v_proj : [8, 1, 2048] whole,
  and works on the block of rows 4096 … 4103 of each [8, 4097, 2048] array — a block of which only row 4096 lies inside
  the array. The body fills both output staging buffers completely: row 0 with the projection row, rows 1 … 7 with that
  row repeated. It never touches the two staged input blocks. The write-back moves only the part of a staging buffer that
  lies inside the array, here row 0, onto row 4096.
  Stated here, at any contents `V` the call is entered from: what the body leaves in the six staging buffers — for a
  buffer whose block overhangs its array, only the part inside the array is ever stated, the rest is a word nobody reads —,
  the body's triple, and the per-point obligation of the pipeline in the form that speaks of the moved part only.
-/
import proofs.«107883_j56667798503562_2_alg».proof.Proof.Gen.Kernel.Launch
import proofs.«107883_j56667798503562_2_alg».proof.Proof.Gen.Kernel.Skeleton
import proofs.«107883_j56667798503562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tail

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, its part inside the array, read off the array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: a projection buffer whole; row 0 of an output staging buffer;
    its rows 1 … 7. -/
abbrev projWhole : Rect S8x1x2048 := Rect.unit (s := S8x1x2048) ![0, 0, 0] S8x1x2048.size inb_S8x1x2048_S8x1x2048_0_0_0
abbrev firstRow : Rect S8x8x2048 := Rect.unit (s := S8x8x2048) ![0, 0, 0] S8x1x2048.size inb_S8x8x2048_S8x1x2048_0_0_0
abbrev otherRows : Rect S8x8x2048 := Rect.unit (s := S8x8x2048) ![0, 1, 0] S8x7x2048.size inb_S8x8x2048_S8x7x2048_0_1_0

/-- What the body's two stores leave in an output staging buffer, from the projection row `x`: rows 1 … 7 the row
    repeated (the later store, listed first), row 0 the row itself. -/
def filled (rep : Vec F S8x1x2048 .f32 → FVec F S8x7x2048 .f32) (x : Vec F S8x1x2048 .f32) : Vec F S8x8x2048 .f32 :=
  View.canon [⟨otherRows, rep (View.ld x projWhole)⟩, ⟨firstRow, View.ld x projWhole⟩]

/-- The two stores tile the buffer: cut into single rows they are its eight rows. -/
theorem filled_cover (p1 : Vec F S8x7x2048 .f32) (p0 : Vec F S8x1x2048 .f32) (y : S8x8x2048.Idx) :
    ∃ pc ∈ ([⟨otherRows, p1⟩, ⟨firstRow, p0⟩] : List (View.Piece (Elt F) S8x8x2048 .f32)), y ∈ pc.1.set :=
  View.cover_of_tiledBy [⟨otherRows, p1⟩, ⟨firstRow, p0⟩] S8x1x2048.size (by sl_kernel_rfl) y

set_option maxHeartbeats 1000000 in
/-- The body on whole staging memrefs: the projection buffers at `x0`, `x1`, the output buffers at anything; the two
    staged input blocks are not touched and are not mentioned. It ends with the projection buffers as they were and
    each output buffer filled from its projection row. -/
theorem body_fills (c : Dev nD) (E : Set ℕ) (i : grid1.Coords)
    (a1 : Memref sig .tc .vmem S8x1x2048 .f32) (h1 : a1.IsWhole) (a2 : Memref sig .tc .vmem S8x1x2048 .f32) (h2 : a2.IsWhole)
    (a3 : Memref sig .tc .vmem S8x8x2048 .f32) (h3 : a3.IsWhole) (a4 : Memref sig .tc .vmem S8x8x2048 .f32) (h4 : a4.IsWhole)
    (a5 : Memref sig .tc .vmem S8x8x2048 .f32) (h5 : a5.IsWhole) (a6 : Memref sig .tc .vmem S8x8x2048 .f32) (h6 : a6.IsWhole)
    (x0 x1 : Vec F S8x1x2048 .f32) (K : PUnit → sProp 𝕄) :
    iprop(owns (c : Thread nD τ) a1 fullShare x0 ∗ owns (c : Thread nD τ) a2 fullShare x1
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
            ∗ owns (c : Thread nD τ) a5 fullShare (filled k1_pay1 x0) ∗ owns (c : Thread nD τ) a6 fullShare (filled k1_pay2 x1)) -∗ K ⟨⟩))
      ⊢ wp frame (wpE (defs₀ (F := F)) Variants.none c none) E (cc1__tail_kernel i a1 h1 a2 h2 a3 h3 a4 h4 a5 h5 a6 h6) K := by
  simp only [cc1__tail_kernel_eq_skeleton]; unfold cc1__tail_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact View.read_writes_eq_canon _ _ _ (filled_cover _ _)
  · iexists _; isplitr
    swap; · iexact H5
    ipureintro
    exact View.read_writes_eq_canon _ _ _ (filled_cover _ _)

/-! ## The proof data of the call -/

/-- On core `c`: the arrays as the call finds them; after the body the projection buffers hold their rows, a staged
    input block holds its part inside the array (filled out with the zero word, which nothing reads), each output
    buffer is filled from its projection row; nothing of the body's own is kept; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (cfg1.win 2).fill (cfg1.grid.coords t) (fun _ => Scalar.ofBits .f32 0#32) (blockAt V c 2 t)
    | ⟨3, _⟩ => (cfg1.win 3).fill (cfg1.grid.coords t) (fun _ => Scalar.ofBits .f32 0#32) (blockAt V c 3 t)
    | ⟨4, _⟩ => filled k1_pay1 (blockAt V c 0 t)
    | ⟨5, _⟩ => filled k1_pay2 (blockAt V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t
    = (cfg1.win 2).fill (cfg1.grid.coords t) (fun _ => Scalar.ofBits .f32 0#32) (blockAt V c 2 t) := by dsimp only [dat]
theorem after_3 (c : Dev nD) (t : Fin cfg1.N) : (dat V c).after 3 t
    = (cfg1.win 3).fill (cfg1.grid.coords t) (fun _ => Scalar.ofBits .f32 0#32) (blockAt V c 3 t) := by dsimp only [dat]
theorem after_4 (c : Dev nD) (t : Fin cfg1.N) : (dat V c).after 4 t = filled k1_pay1 (blockAt V c 0 t) := by dsimp only [dat]
theorem after_5 (c : Dev nD) (t : Fin cfg1.N) : (dat V c).after 5 t = filled k1_pay2 (blockAt V c 1 t) := by dsimp only [dat]

/-- A projection buffer holds its row when the body runs: fetched whole. -/
theorem before_0 (c : Dev nD) (t : Fin cfg1.N) (d) : (dat V c).before 0 t d = blockAt V c 0 t :=
  ((dat V c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg1.N) (d) : (dat V c).before 1 t d = blockAt V c 1 t :=
  ((dat V c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)
/-- A staged input block, just fetched: the block's part inside the array where the fetch lands it, `d` elsewhere. -/
theorem before_2 (c : Dev nD) (t : Fin cfg1.N) (d) :
    (dat V c).before 2 t d = (cfg1.win 2).fill (cfg1.grid.coords t) d (blockAt V c 2 t) := by
  unfold Dat.before; rw [if_pos (fetch1_2 t)]; unfold Dat.fetched Dat.blockOf blockAt; rw [A_eq]
theorem before_3 (c : Dev nD) (t : Fin cfg1.N) (d) :
    (dat V c).before 3 t d = (cfg1.win 3).fill (cfg1.grid.coords t) d (blockAt V c 3 t) := by
  unfold Dat.before; rw [if_pos (fetch1_3 t)]; unfold Dat.fetched Dat.blockOf blockAt; rw [A_eq]

/-! ## The per-point obligation, on the moved parts -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns: the projection buffers exactly; each buffer whose block may overhang its array stated on the
    part inside the array, the rest at some `d`. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ (∃ d, owns (c : Thread nD τ) (st1_2 t) fullShare ((win1 2).fill (grid1.coords t) d ((win1 2).cut (grid1.coords t) ((dat V c).after 2 t))))
    ∗ (∃ d, owns (c : Thread nD τ) (st1_3 t) fullShare ((win1 3).fill (grid1.coords t) d ((win1 3).cut (grid1.coords t) ((dat V c).after 3 t))))
    ∗ (∃ d, owns (c : Thread nD τ) (st1_4 t) fullShare ((win1 4).fill (grid1.coords t) d ((win1 4).cut (grid1.coords t) ((dat V c).after 4 t))))
    ∗ (∃ d, owns (c : Thread nD τ) (st1_5 t) fullShare ((win1 5).fill (grid1.coords t) d ((win1 5).cut (grid1.coords t) ((dat V c).after 5 t)))))

/-- The body at the point. The projection buffers hold their rows, so `body_fills` applies; the staged input blocks
    pass around it untouched and are what the fetch left: the array's part where the fetch landed it, the same `d`
    elsewhere; an output buffer the body filled is, trivially, itself on its moved part and itself elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩, ⟨%d2, H2⟩, ⟨%d3, H3⟩, ⟨%d4, H4⟩, ⟨%d5, H5⟩⟩
  rw [before_0 V c t d0, before_1 V c t d1, before_2 V c t d2, before_3 V c t d3]
  iapply (body_fills c Set.univ _ _ _ _ _ _ _ _ _ _ _ _ _ (blockAt V c 0 t) (blockAt V c 1 t) _)
  isplitl [H0]; · iexact H0
  isplitl [H1]; · iexact H1
  isplitl [H4]; · iexists _; iexact H4
  isplitl [H5]; · iexists _; iexact H5
  iintro ⟨H0, H1, H4, H5⟩
  isplitl [HΦ]; · iexact HΦ
  isplitl [Ho]; · iexact Ho
  isplitl [H0]; · iexact H0
  isplitl [H1]; · iexact H1
  isplitl [H2]
  · iexists d2
    rw [after_2, (win1 2).cut_fill]
    iexact H2
  isplitl [H3]
  · iexists d3
    rw [after_3, (win1 3).cut_fill]
    iexact H3
  isplitl [H4]
  · iexists (dat V c).after 4 t
    rw [(win1 4).fill_cut, after_4]
    iexact H4
  · iexists (dat V c).after 5 t
    rw [(win1 5).fill_cut, after_5]
    iexact H5

/-- The pipeline's obligation on the body, at the point, in the form that speaks of the moved parts only. -/
theorem body_obligation (c : Dev nD) : BodyObligationLoose (dat (F := F) V c) (defs₀ (F := F)) Variants.none () Set.univ := fun t => by
  rw [bigSep_W1, bigSep_W1]
  simp only
  exact sound_body V c t

end Cert.Kernel.Tail

end
-- ==== Proof.BitsAppend.lean ====
/-
  The whole program as a run. @main is three items: the call that copies the caches, two host copies (each output of
  the first call copied into the buffer the second call works on), and the call that writes the new row. Between items
  a core's buffers hold, in order: the launch contents; those with the first call's two output arrays at what its
  write-backs leave; those after the two host copies; those with the second call's two output arrays at what its
  write-back leaves. Each call is entered from one of these and left at the next; the run theorem reads every buffer
  that outlives a call off the last of them.
-/
import proofs.«107883_j56667798503562_2_alg».proof.Proof.BitsBulkCopy
import proofs.«107883_j56667798503562_2_alg».proof.Proof.BitsTailRow

set_option maxRecDepth 16384

noncomputable section

namespace Cert.Kernel.Append

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev atLaunch : Dev nD → Valuation τ sig (Elt F) := fun c b => (s₀ m ρ).mem ((c : Dev nD), b)
/-- The same read at the core's references: what the first call is entered from. -/
abbrev launchV : (c : Dev nD) → (b : Ref sig .tc) → Buf (Elt F) ((c : Thread nD τ).loc b) := fun c b => atLaunch m ρ c b

/-- After the first call: its arrays at what the pipeline leaves, every other buffer as before. -/
def afterCopy (c : Dev nD) : Valuation τ sig (Elt F) :=
  Pipeline.withArrays spec0 c (atLaunch m ρ c) fun w => (Bulk.dat (launchV m ρ) c).arrAt w cfg0.N
theorem afterCopy_arr (c : Dev nD) (w : Fin cfg0.W) :
    afterCopy m ρ c (Proc.devRef .tc (Pipeline.arrRef spec0 w)) = (Bulk.dat (launchV m ρ) c).arrAt w cfg0.N := by
  unfold afterCopy; exact Pipeline.withArrays_arr spec0 launch0.win.arr_inj c _ _ w
theorem afterCopy_of_ne (c : Dev nD) (b : Ref sig .tc) (hb : ∀ w, Pipeline.arrRef spec0 w ≠ b) :
    afterCopy m ρ c (Proc.devRef .tc b) = atLaunch m ρ c (Proc.devRef .tc b) := by
  unfold afterCopy; exact Pipeline.withArrays_of_ne spec0 c _ _ b hb
abbrev copyV : (c : Dev nD) → (b : Ref sig .tc) → Buf (Elt F) ((c : Thread nD τ).loc b) := fun c b => afterCopy m ρ c b
theorem copy_arrays (c : Dev nD) (w : Fin cfg0.W) :
    (Bulk.dat (launchV m ρ) c).arrAt w cfg0.N = copyV m ρ c (Pipeline.arrRef spec0 w) :=
  (afterCopy_arr m ρ c w).symm
theorem copy_rest (c : Dev nD) : ∀ b, b ∉ Finset.univ.image (Pipeline.arrRef spec0) → copyV m ρ c b = launchV m ρ c b :=
  fun b hb => afterCopy_of_ne m ρ c b fun w e => hb (Finset.mem_image.mpr ⟨w, Finset.mem_univ _, e⟩)

/-- After the two host copies: what the second call is entered from. -/
abbrev afterAlias : Dev nD → Valuation τ sig (Elt F) := fun c => StableHlo.after hostOps1 (afterCopy m ρ c)
abbrev aliasV : (c : Dev nD) → (b : Ref sig .tc) → Buf (Elt F) ((c : Thread nD τ).loc b) := fun c b => afterAlias m ρ c b

/-- After the second call. -/
def afterTail (c : Dev nD) : Valuation τ sig (Elt F) :=
  Pipeline.withArrays spec1 c (afterAlias m ρ c) fun w => (Tail.dat (aliasV m ρ) c).arrAt w cfg1.N
theorem afterTail_arr (c : Dev nD) (w : Fin cfg1.W) :
    afterTail m ρ c (Proc.devRef .tc (Pipeline.arrRef spec1 w)) = (Tail.dat (aliasV m ρ) c).arrAt w cfg1.N := by
  unfold afterTail; exact Pipeline.withArrays_arr spec1 launch1.win.arr_inj c _ _ w
theorem afterTail_of_ne (c : Dev nD) (b : Ref sig .tc) (hb : ∀ w, Pipeline.arrRef spec1 w ≠ b) :
    afterTail m ρ c (Proc.devRef .tc b) = afterAlias m ρ c (Proc.devRef .tc b) := by
  unfold afterTail; exact Pipeline.withArrays_of_ne spec1 c _ _ b hb
abbrev tailV : (c : Dev nD) → (b : Ref sig .tc) → Buf (Elt F) ((c : Thread nD τ).loc b) := fun c b => afterTail m ρ c b
theorem tail_arrays (c : Dev nD) (w : Fin cfg1.W) :
    (Tail.dat (aliasV m ρ) c).arrAt w cfg1.N = tailV m ρ c (Pipeline.arrRef spec1 w) :=
  (afterTail_arr m ρ c w).symm
theorem tail_rest (c : Dev nD) : ∀ b, b ∉ Finset.univ.image (Pipeline.arrRef spec1) → tailV m ρ c b = aliasV m ρ c b :=
  fun b hb => afterTail_of_ne m ρ c b fun w e => hb (Finset.mem_image.mpr ⟨w, Finset.mem_univ _, e⟩)

/-! ## The proof data of both calls, and what rides beside the buffers -/

/-- Neither call has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => Bulk.dat (launchV m ρ) c
  | ⟨1, _⟩ => fun c => Tail.dat (aliasV m ρ) c
abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A stretch of host operations as an item, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The two host copies allocate nothing. -/
theorem copies_fresh : (hostOps1 : List (HloOp τ sig (Elt F))).Forall fun op => op.fresh = ∅ := by
  simp only [List.Forall]; repeat' constructor
/-- A buffer that outlives a call is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (afterTail m ρ c) ∗ ∃ r, prngReg c r)

/-! ## The two calls as items -/

set_option backward.isDefEq.respectTransparency.types false in
/-- The first call: entered from the launch contents, left at `afterCopy`. Its arrays are split out of the held
    buffers and put back at what the pipeline leaves; the generator register goes into the pipeline's invariant and
    comes back; nothing is owed. -/
def copyCall : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Bulk.body_obligation (launchV m ρ) c).loose
  hwaits := Pipeline.hwaits_of_owed_zero _ _ _ _ L lv 0 fun _ _ => rfl
  pre c := iprop(StableHlo.held (c : Thread nD τ) (Pipeline.ucRefs τ sig) (atLaunch m ρ c) ∗ R c)
  post c := iprop(StableHlo.held (c : Thread nD τ) (Pipeline.ucRefs τ sig) (afterCopy m ρ c) ∗ R c)
  X c := iprop(∃ r, prngReg c r)
  Y c := iprop(∃ r, prngReg c r)
  Z c := Pipeline.unscopedRest (Ix := Unit) (Name := ℕ) (U := UR sig nD τ) (Lvl := ℕ) spec0 c (launchV m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (launchV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (launchV m ρ c) (copyV m ρ c) ((pdats m ρ 0 c).arrAt · cfg0.N) (copy_arrays m ρ c) (copy_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `afterAlias`, left at `afterTail`, which the launch reads at the end. -/
def tailCall : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := Tail.body_obligation (aliasV m ρ) c
  hwaits := Pipeline.hwaits_of_owed_zero _ _ _ _ L lv 1 fun _ _ => rfl
  pre c := iprop(StableHlo.held (c : Thread nD τ) (Pipeline.ucRefs τ sig) (afterAlias m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (aliasV m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (aliasV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (aliasV m ρ c) (tailV m ρ c) ((pdats m ρ 1 c).arrAt · cfg1.N) (tail_arrays m ρ c) (tail_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .region (copyCall m ρ),
    .host (hseg hostOps1 hostOps1_sub copies_fresh (afterCopy m ρ)),
    .region (tailCall m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    buffer that outlives a call ends at `afterTail`. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = afterTail m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterTail m ρ c b)
    (hfin := fun c s' => by
      iintro ⟨⟨Hh, -⟩, HSI⟩
      unfold StableHlo.held
      imodintro
      iapply (pointsTo_read_all (Pipeline.ucRefs τ sig) (fun b => (((c : Thread nD τ)).1, b)) (afterTail m ρ c) s')
      isplitl [Hh] <;> iassumption)
    (hQ := fun s h c b hb => h c _ (mem_uc b hb))

end Cert.Kernel.Append

end
-- ==== Proof.BitsKept.lean ====
/-
  What the last contents hold at the program's four arguments, and what the two host copies do. No item writes an
  argument: a call changes only its output arrays, and the host copies write only the second call's output buffers.
  So each argument, read off the last contents, walks back item by item to the launch memory. The host copies leave in
  each of the second call's output buffers what the first call left in the matching output array.
-/
import proofs.«107883_j56667798503562_2_alg».proof.Proof.BitsAppend

set_option maxRecDepth 16384

noncomputable section

namespace Cert.Kernel.Append

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The host copies write the second call's two output buffers and nothing else. -/
theorem alias_keeps (c : Dev nD) (b : Ref sig .tc) (h0 : b ≠ main_v1_0) (h1 : b ≠ main_v1_1) :
    afterAlias m ρ c (Proc.devRef .tc b) = afterCopy m ρ c (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h0, StableHlo.devRef_ne_of_ne h1⟩))

/-- Each host copy leaves the first call's output in the second call's output buffer. -/
theorem alias_out0 (c : Dev nD) :
    afterAlias m ρ c (Proc.devRef .tc main_v1_0) = afterCopy m ρ c (Proc.devRef .tc main_v0_0) := by
  show StableHlo.after hostOps1 (afterCopy m ρ c) (Proc.devRef .tc main_v1_0) = _
  after_results
  rfl
theorem alias_out1 (c : Dev nD) :
    afterAlias m ρ c (Proc.devRef .tc main_v1_1) = afterCopy m ρ c (Proc.devRef .tc main_v0_1) := by
  show StableHlo.after hostOps1 (afterCopy m ρ c) (Proc.devRef .tc main_v1_1) = _
  after_results
  rfl

/-- The caches: input arrays of the first call, untouched by everything after it. -/
theorem kept_arg0 (c : Dev nD) : afterTail m ρ c (Proc.devRef .tc main_arg0) = m ((c : Thread nD τ).loc main_arg0) :=
  calc afterTail m ρ c (Proc.devRef .tc main_arg0)
    _ = afterAlias m ρ c (Proc.devRef .tc main_arg0) := afterTail_of_ne m ρ c main_arg0 (by decide)
    _ = afterCopy m ρ c (Proc.devRef .tc main_arg0) := alias_keeps m ρ c main_arg0 (by decide) (by decide)
    _ = atLaunch m ρ c (Proc.devRef .tc main_arg0) :=
        (afterCopy_arr m ρ c 0).trans (((Bulk.dat (launchV m ρ) c).arrAt_in 0 rfl _).trans (Bulk.A_eq (launchV m ρ) c 0))
    _ = m ((c : Thread nD τ).loc main_arg0) := rfl
theorem kept_arg1 (c : Dev nD) : afterTail m ρ c (Proc.devRef .tc main_arg1) = m ((c : Thread nD τ).loc main_arg1) :=
  calc afterTail m ρ c (Proc.devRef .tc main_arg1)
    _ = afterAlias m ρ c (Proc.devRef .tc main_arg1) := afterTail_of_ne m ρ c main_arg1 (by decide)
    _ = afterCopy m ρ c (Proc.devRef .tc main_arg1) := alias_keeps m ρ c main_arg1 (by decide) (by decide)
    _ = atLaunch m ρ c (Proc.devRef .tc main_arg1) :=
        (afterCopy_arr m ρ c 1).trans (((Bulk.dat (launchV m ρ) c).arrAt_in 1 rfl _).trans (Bulk.A_eq (launchV m ρ) c 1))
    _ = m ((c : Thread nD τ).loc main_arg1) := rfl

/-- The projection rows: input arrays of the second call, untouched by everything before it. -/
theorem kept_arg2 (c : Dev nD) : afterTail m ρ c (Proc.devRef .tc main_arg2) = m ((c : Thread nD τ).loc main_arg2) :=
  calc afterTail m ρ c (Proc.devRef .tc main_arg2)
    _ = afterAlias m ρ c (Proc.devRef .tc main_arg2) :=
        (afterTail_arr m ρ c 0).trans (((Tail.dat (aliasV m ρ) c).arrAt_in 0 rfl _).trans (Tail.A_eq (aliasV m ρ) c 0))
    _ = afterCopy m ρ c (Proc.devRef .tc main_arg2) := alias_keeps m ρ c main_arg2 (by decide) (by decide)
    _ = atLaunch m ρ c (Proc.devRef .tc main_arg2) := afterCopy_of_ne m ρ c main_arg2 (by decide)
    _ = m ((c : Thread nD τ).loc main_arg2) := rfl
theorem kept_arg3 (c : Dev nD) : afterTail m ρ c (Proc.devRef .tc main_arg3) = m ((c : Thread nD τ).loc main_arg3) :=
  calc afterTail m ρ c (Proc.devRef .tc main_arg3)
    _ = afterAlias m ρ c (Proc.devRef .tc main_arg3) :=
        (afterTail_arr m ρ c 1).trans (((Tail.dat (aliasV m ρ) c).arrAt_in 1 rfl _).trans (Tail.A_eq (aliasV m ρ) c 1))
    _ = afterCopy m ρ c (Proc.devRef .tc main_arg3) := alias_keeps m ρ c main_arg3 (by decide) (by decide)
    _ = atLaunch m ρ c (Proc.devRef .tc main_arg3) := afterCopy_of_ne m ρ c main_arg3 (by decide)
    _ = m ((c : Thread nD τ).loc main_arg3) := rfl

/-- The frame: every weakly fair execution terminates, nothing faulting, and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (by decide)).trans (kept_arg0 m ρ c), (h c main_arg1 (by decide)).trans (kept_arg1 m ρ c),
     (h c main_arg2 (by decide)).trans (kept_arg2 m ρ c), (h c main_arg3 (by decide)).trans (kept_arg3 m ρ c)⟩)
    (run m ρ)

end Cert.Kernel.Append

end
-- ==== Proof.IdealBulkCopy.lean ====
/-
  The first pallas_call copies the two caches block by block. Its grid is 8 × 8; at point (b, s) it fetches rows
  512·s … 512·s + 511 of batch b of each cache into a staging buffer, the body stores that block unchanged into the
  matching output staging buffer, and the write-back lands it on the same rows of batch b of a [8, 4097, 2048] array.
  Stated here, at any contents `V` the call is entered from: each input block at a point, what the body leaves in the
  four staging buffers (the two input blocks, twice), the body's triple, and the per-point obligation of the pipeline.
  The output blocks never reach the last row of their arrays, so nothing here depends on where an array ends.
-/
import proofs.«107883_j56667798503562_2_alg».proof.Proof.Gen.KernelIdeal.Launch
import proofs.«107883_j56667798503562_2_alg».proof.Proof.Gen.KernelIdeal.Skeleton
import proofs.«107883_j56667798503562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bulk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole staging block, as the rectangle the body loads and stores through. -/
abbrev whole : Rect S1x512x2048 := Rect.unit (s := S1x512x2048) ![0, 0, 0] S1x512x2048.size inb_S1x512x2048_S1x512x2048_0_0_0

/-- What one store of a loaded block leaves in an output staging buffer: the block. -/
def copied (x : Vec F S1x512x2048 .f32) : Vec F S1x512x2048 .f32 :=
  View.canon [⟨whole, View.ld x whole⟩]

/-- The one store covers the buffer. -/
theorem copied_cover (p : Vec F S1x512x2048 .f32) (y : S1x512x2048.Idx) :
    ∃ pc ∈ ([⟨whole, p⟩] : List (View.Piece (Elt F) S1x512x2048 .f32)), y ∈ pc.1.set :=
  View.cover_of_tiled [⟨whole, p⟩] S1x512x2048.size (by rfl) y

set_option maxHeartbeats 1000000 in
/-- The body on whole staging memrefs: the two input buffers at `x0`, `x1`, the two output buffers at anything;
    it ends with the inputs as they were and each output holding its input's block. -/
theorem body_copies (c : Dev nD) (E : Set ℕ) (i : grid0.Coords)
    (a2 : Memref sig .tc .vmem S1x512x2048 .f32) (h2 : a2.IsWhole) (a3 : Memref sig .tc .vmem S1x512x2048 .f32) (h3 : a3.IsWhole)
    (a4 : Memref sig .tc .vmem S1x512x2048 .f32) (h4 : a4.IsWhole) (a5 : Memref sig .tc .vmem S1x512x2048 .f32) (h5 : a5.IsWhole)
    (x0 x1 : Vec F S1x512x2048 .f32) (K : PUnit → sProp 𝕄) :
    iprop(owns (c : Thread nD τ) a2 fullShare x0 ∗ owns (c : Thread nD τ) a3 fullShare x1
        ∗ (∃ d, owns (c : Thread nD τ) a4 fullShare d) ∗ (∃ d, owns (c : Thread nD τ) a5 fullShare d)
        ∗ (iprop(owns (c : Thread nD τ) a2 fullShare x0 ∗ owns (c : Thread nD τ) a3 fullShare x1
            ∗ owns (c : Thread nD τ) a4 fullShare (copied x0) ∗ owns (c : Thread nD τ) a5 fullShare (copied x1)) -∗ K ⟨⟩))
      ⊢ wp frame (wpE (defs₀ (F := F)) Variants.none c none) E (cc0__bulk_copy_kernel i a2 h2 a3 h3 a4 h4 a5 h5) K := by
  simp only [cc0__bulk_copy_kernel_eq_skeleton]; unfold cc0__bulk_copy_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (copied_cover _)
  · iexists _; isplitr
    swap; · iexact H3
    ipureintro
    exact View.read_writes_eq_canon _ _ _ (copied_cover _)

/-! ## The proof data of the call -/

/-- On core `c`: the arrays as the call finds them; after the body at point `t` each input buffer holds its block
    and each output buffer that block copied; nothing of the body's own is kept between points; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => copied (blockAt V c 0 t)
    | ⟨3, _⟩ => copied (blockAt V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = copied (blockAt V c 0 t) := by dsimp only [dat]
theorem after_3 (c : Dev nD) (t : Fin cfg0.N) : (dat V c).after 3 t = copied (blockAt V c 1 t) := by dsimp only [dat]

/-- An input buffer holds its block when the body runs: the window is fetched at every point and its blocks tile
    the cache, so the fetch fills the whole buffer. -/
theorem before_0 (c : Dev nD) (t : Fin cfg0.N) (d) : (dat V c).before 0 t d = blockAt V c 0 t :=
  ((dat V c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat V c).before 1 t d = blockAt V c 1 t :=
  ((dat V c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The per-point obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_copies c Set.univ _ _ _ _ _ _ _ _ _ (blockAt V c 0 t) (blockAt V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem body_obligation (c : Dev nD) : BodyObligation (dat (F := F) V c) (defs₀ (F := F)) Variants.none () Set.univ := fun t => by
  rw [bigSep_W0, bigSep_W0]
  exact sound_body V c t

end Cert.KernelIdeal.Bulk

end
-- ==== Proof.IdealTailRow.lean ====
/-
  The second pallas_call has one grid point. It fetches the two projection rows k_proj, v_proj : [8, 1, 2048] whole,
  and works on the block of rows 4096 … 4103 of each [8, 4097, 2048] array — a block of which only row 4096 lies inside
  the array. The body fills both output staging buffers completely: row 0 with the projection row, rows 1 … 7 with that
  row repeated. It never touches the two staged input blocks. The write-back moves only the part of a staging buffer that
  lies inside the array, here row 0, onto row 4096.
  Stated here, at any contents `V` the call is entered from: what the body leaves in the six staging buffers — for a
  buffer whose block overhangs its array, only the part inside the array is ever stated, the rest is a word nobody reads —,
  the body's triple, and the per-point obligation of the pipeline in the form that speaks of the moved part only.
-/
import proofs.«107883_j56667798503562_2_alg».proof.Proof.Gen.KernelIdeal.Launch
import proofs.«107883_j56667798503562_2_alg».proof.Proof.Gen.KernelIdeal.Skeleton
import proofs.«107883_j56667798503562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-- Window `w`'s block at point `t`, its part inside the array, read off the array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: a projection buffer whole; row 0 of an output staging buffer;
    its rows 1 … 7. -/
abbrev projWhole : Rect S8x1x2048 := Rect.unit (s := S8x1x2048) ![0, 0, 0] S8x1x2048.size inb_S8x1x2048_S8x1x2048_0_0_0
abbrev firstRow : Rect S8x8x2048 := Rect.unit (s := S8x8x2048) ![0, 0, 0] S8x1x2048.size inb_S8x8x2048_S8x1x2048_0_0_0
abbrev otherRows : Rect S8x8x2048 := Rect.unit (s := S8x8x2048) ![0, 1, 0] S8x7x2048.size inb_S8x8x2048_S8x7x2048_0_1_0

/-- What the body's two stores leave in an output staging buffer, from the projection row `x`: rows 1 … 7 the row
    repeated (the later store, listed first), row 0 the row itself. -/
def filled (rep : Vec F S8x1x2048 .f32 → FVec F S8x7x2048 .f32) (x : Vec F S8x1x2048 .f32) : Vec F S8x8x2048 .f32 :=
  View.canon [⟨otherRows, rep (View.ld x projWhole)⟩, ⟨firstRow, View.ld x projWhole⟩]

/-- The two stores tile the buffer: cut into single rows they are its eight rows. -/
theorem filled_cover (p1 : Vec F S8x7x2048 .f32) (p0 : Vec F S8x1x2048 .f32) (y : S8x8x2048.Idx) :
    ∃ pc ∈ ([⟨otherRows, p1⟩, ⟨firstRow, p0⟩] : List (View.Piece (Elt F) S8x8x2048 .f32)), y ∈ pc.1.set :=
  View.cover_of_tiledBy [⟨otherRows, p1⟩, ⟨firstRow, p0⟩] S8x1x2048.size (by sl_kernel_rfl) y

set_option maxHeartbeats 1000000 in
/-- The body on whole staging memrefs: the projection buffers at `x0`, `x1`, the output buffers at anything; the two
    staged input blocks are not touched and are not mentioned. It ends with the projection buffers as they were and
    each output buffer filled from its projection row. -/
theorem body_fills (c : Dev nD) (E : Set ℕ) (i : grid1.Coords)
    (a1 : Memref sig .tc .vmem S8x1x2048 .f32) (h1 : a1.IsWhole) (a2 : Memref sig .tc .vmem S8x1x2048 .f32) (h2 : a2.IsWhole)
    (a3 : Memref sig .tc .vmem S8x8x2048 .f32) (h3 : a3.IsWhole) (a4 : Memref sig .tc .vmem S8x8x2048 .f32) (h4 : a4.IsWhole)
    (a5 : Memref sig .tc .vmem S8x8x2048 .f32) (h5 : a5.IsWhole) (a6 : Memref sig .tc .vmem S8x8x2048 .f32) (h6 : a6.IsWhole)
    (x0 x1 : Vec F S8x1x2048 .f32) (K : PUnit → sProp 𝕄) :
    iprop(owns (c : Thread nD τ) a1 fullShare x0 ∗ owns (c : Thread nD τ) a2 fullShare x1
        ∗ (∃ d, owns (c : Thread nD τ) a5 fullShare d) ∗ (∃ d, owns (c : Thread nD τ) a6 fullShare d)
        ∗ (iprop(owns (c : Thread nD τ) a1 fullShare x0 ∗ owns (c : Thread nD τ) a2 fullShare x1
            ∗ owns (c : Thread nD τ) a5 fullShare (filled k1_pay1 x0) ∗ owns (c : Thread nD τ) a6 fullShare (filled k1_pay2 x1)) -∗ K ⟨⟩))
      ⊢ wp frame (wpE (defs₀ (F := F)) Variants.none c none) E (cc1__tail_kernel i a1 h1 a2 h2 a3 h3 a4 h4 a5 h5 a6 h6) K := by
  simp only [cc1__tail_kernel_eq_skeleton]; unfold cc1__tail_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact View.read_writes_eq_canon _ _ _ (filled_cover _ _)
  · iexists _; isplitr
    swap; · iexact H5
    ipureintro
    exact View.read_writes_eq_canon _ _ _ (filled_cover _ _)

/-! ## The proof data of the call -/

/-- On core `c`: the arrays as the call finds them; after the body the projection buffers hold their rows, a staged
    input block holds its part inside the array (filled out with the zero word, which nothing reads), each output
    buffer is filled from its projection row; nothing of the body's own is kept; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (cfg1.win 2).fill (cfg1.grid.coords t) (fun _ => Scalar.ofBits .f32 0#32) (blockAt V c 2 t)
    | ⟨3, _⟩ => (cfg1.win 3).fill (cfg1.grid.coords t) (fun _ => Scalar.ofBits .f32 0#32) (blockAt V c 3 t)
    | ⟨4, _⟩ => filled k1_pay1 (blockAt V c 0 t)
    | ⟨5, _⟩ => filled k1_pay2 (blockAt V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t
    = (cfg1.win 2).fill (cfg1.grid.coords t) (fun _ => Scalar.ofBits .f32 0#32) (blockAt V c 2 t) := by dsimp only [dat]
theorem after_3 (c : Dev nD) (t : Fin cfg1.N) : (dat V c).after 3 t
    = (cfg1.win 3).fill (cfg1.grid.coords t) (fun _ => Scalar.ofBits .f32 0#32) (blockAt V c 3 t) := by dsimp only [dat]
theorem after_4 (c : Dev nD) (t : Fin cfg1.N) : (dat V c).after 4 t = filled k1_pay1 (blockAt V c 0 t) := by dsimp only [dat]
theorem after_5 (c : Dev nD) (t : Fin cfg1.N) : (dat V c).after 5 t = filled k1_pay2 (blockAt V c 1 t) := by dsimp only [dat]

/-- A projection buffer holds its row when the body runs: fetched whole. -/
theorem before_0 (c : Dev nD) (t : Fin cfg1.N) (d) : (dat V c).before 0 t d = blockAt V c 0 t :=
  ((dat V c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg1.N) (d) : (dat V c).before 1 t d = blockAt V c 1 t :=
  ((dat V c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)
/-- A staged input block, just fetched: the block's part inside the array where the fetch lands it, `d` elsewhere. -/
theorem before_2 (c : Dev nD) (t : Fin cfg1.N) (d) :
    (dat V c).before 2 t d = (cfg1.win 2).fill (cfg1.grid.coords t) d (blockAt V c 2 t) := by
  unfold Dat.before; rw [if_pos (fetch1_2 t)]; unfold Dat.fetched Dat.blockOf blockAt; rw [A_eq]
theorem before_3 (c : Dev nD) (t : Fin cfg1.N) (d) :
    (dat V c).before 3 t d = (cfg1.win 3).fill (cfg1.grid.coords t) d (blockAt V c 3 t) := by
  unfold Dat.before; rw [if_pos (fetch1_3 t)]; unfold Dat.fetched Dat.blockOf blockAt; rw [A_eq]

/-! ## The per-point obligation, on the moved parts -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns: the projection buffers exactly; each buffer whose block may overhang its array stated on the
    part inside the array, the rest at some `d`. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ (∃ d, owns (c : Thread nD τ) (st1_2 t) fullShare ((win1 2).fill (grid1.coords t) d ((win1 2).cut (grid1.coords t) ((dat V c).after 2 t))))
    ∗ (∃ d, owns (c : Thread nD τ) (st1_3 t) fullShare ((win1 3).fill (grid1.coords t) d ((win1 3).cut (grid1.coords t) ((dat V c).after 3 t))))
    ∗ (∃ d, owns (c : Thread nD τ) (st1_4 t) fullShare ((win1 4).fill (grid1.coords t) d ((win1 4).cut (grid1.coords t) ((dat V c).after 4 t))))
    ∗ (∃ d, owns (c : Thread nD τ) (st1_5 t) fullShare ((win1 5).fill (grid1.coords t) d ((win1 5).cut (grid1.coords t) ((dat V c).after 5 t)))))

/-- The body at the point. The projection buffers hold their rows, so `body_fills` applies; the staged input blocks
    pass around it untouched and are what the fetch left: the array's part where the fetch landed it, the same `d`
    elsewhere; an output buffer the body filled is, trivially, itself on its moved part and itself elsewhere. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩, ⟨%d2, H2⟩, ⟨%d3, H3⟩, ⟨%d4, H4⟩, ⟨%d5, H5⟩⟩
  rw [before_0 V c t d0, before_1 V c t d1, before_2 V c t d2, before_3 V c t d3]
  iapply (body_fills c Set.univ _ _ _ _ _ _ _ _ _ _ _ _ _ (blockAt V c 0 t) (blockAt V c 1 t) _)
  isplitl [H0]; · iexact H0
  isplitl [H1]; · iexact H1
  isplitl [H4]; · iexists _; iexact H4
  isplitl [H5]; · iexists _; iexact H5
  iintro ⟨H0, H1, H4, H5⟩
  isplitl [HΦ]; · iexact HΦ
  isplitl [Ho]; · iexact Ho
  isplitl [H0]; · iexact H0
  isplitl [H1]; · iexact H1
  isplitl [H2]
  · iexists d2
    rw [after_2, (win1 2).cut_fill]
    iexact H2
  isplitl [H3]
  · iexists d3
    rw [after_3, (win1 3).cut_fill]
    iexact H3
  isplitl [H4]
  · iexists (dat V c).after 4 t
    rw [(win1 4).fill_cut, after_4]
    iexact H4
  · iexists (dat V c).after 5 t
    rw [(win1 5).fill_cut, after_5]
    iexact H5

/-- The pipeline's obligation on the body, at the point, in the form that speaks of the moved parts only. -/
theorem body_obligation (c : Dev nD) : BodyObligationLoose (dat (F := F) V c) (defs₀ (F := F)) Variants.none () Set.univ := fun t => by
  rw [bigSep_W1, bigSep_W1]
  simp only
  exact sound_body V c t

end Cert.KernelIdeal.Tail

end
-- ==== Proof.IdealAppend.lean ====
/-
  The whole program as a run. @main is three items: the call that copies the caches, two host copies (each output of
  the first call copied into the buffer the second call works on), and the call that writes the new row. Between items
  a core's buffers hold, in order: the launch contents; those with the first call's two output arrays at what its
  write-backs leave; those after the two host copies; those with the second call's two output arrays at what its
  write-back leaves. Each call is entered from one of these and left at the next; the run theorem reads every buffer
  that outlives a call off the last of them.
-/
import proofs.«107883_j56667798503562_2_alg».proof.Proof.IdealBulkCopy
import proofs.«107883_j56667798503562_2_alg».proof.Proof.IdealTailRow

set_option maxRecDepth 16384

noncomputable section

namespace Cert.KernelIdeal.Append

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev atLaunch : Dev nD → Valuation τ sig (Elt F) := fun c b => (s₀ m ρ).mem ((c : Dev nD), b)
/-- The same read at the core's references: what the first call is entered from. -/
abbrev launchV : (c : Dev nD) → (b : Ref sig .tc) → Buf (Elt F) ((c : Thread nD τ).loc b) := fun c b => atLaunch m ρ c b

/-- After the first call: its arrays at what the pipeline leaves, every other buffer as before. -/
def afterCopy (c : Dev nD) : Valuation τ sig (Elt F) :=
  Pipeline.withArrays spec0 c (atLaunch m ρ c) fun w => (Bulk.dat (launchV m ρ) c).arrAt w cfg0.N
theorem afterCopy_arr (c : Dev nD) (w : Fin cfg0.W) :
    afterCopy m ρ c (Proc.devRef .tc (Pipeline.arrRef spec0 w)) = (Bulk.dat (launchV m ρ) c).arrAt w cfg0.N := by
  unfold afterCopy; exact Pipeline.withArrays_arr spec0 launch0.win.arr_inj c _ _ w
theorem afterCopy_of_ne (c : Dev nD) (b : Ref sig .tc) (hb : ∀ w, Pipeline.arrRef spec0 w ≠ b) :
    afterCopy m ρ c (Proc.devRef .tc b) = atLaunch m ρ c (Proc.devRef .tc b) := by
  unfold afterCopy; exact Pipeline.withArrays_of_ne spec0 c _ _ b hb
abbrev copyV : (c : Dev nD) → (b : Ref sig .tc) → Buf (Elt F) ((c : Thread nD τ).loc b) := fun c b => afterCopy m ρ c b
theorem copy_arrays (c : Dev nD) (w : Fin cfg0.W) :
    (Bulk.dat (launchV m ρ) c).arrAt w cfg0.N = copyV m ρ c (Pipeline.arrRef spec0 w) :=
  (afterCopy_arr m ρ c w).symm
theorem copy_rest (c : Dev nD) : ∀ b, b ∉ Finset.univ.image (Pipeline.arrRef spec0) → copyV m ρ c b = launchV m ρ c b :=
  fun b hb => afterCopy_of_ne m ρ c b fun w e => hb (Finset.mem_image.mpr ⟨w, Finset.mem_univ _, e⟩)

/-- After the two host copies: what the second call is entered from. -/
abbrev afterAlias : Dev nD → Valuation τ sig (Elt F) := fun c => StableHlo.after hostOps1 (afterCopy m ρ c)
abbrev aliasV : (c : Dev nD) → (b : Ref sig .tc) → Buf (Elt F) ((c : Thread nD τ).loc b) := fun c b => afterAlias m ρ c b

/-- After the second call. -/
def afterTail (c : Dev nD) : Valuation τ sig (Elt F) :=
  Pipeline.withArrays spec1 c (afterAlias m ρ c) fun w => (Tail.dat (aliasV m ρ) c).arrAt w cfg1.N
theorem afterTail_arr (c : Dev nD) (w : Fin cfg1.W) :
    afterTail m ρ c (Proc.devRef .tc (Pipeline.arrRef spec1 w)) = (Tail.dat (aliasV m ρ) c).arrAt w cfg1.N := by
  unfold afterTail; exact Pipeline.withArrays_arr spec1 launch1.win.arr_inj c _ _ w
theorem afterTail_of_ne (c : Dev nD) (b : Ref sig .tc) (hb : ∀ w, Pipeline.arrRef spec1 w ≠ b) :
    afterTail m ρ c (Proc.devRef .tc b) = afterAlias m ρ c (Proc.devRef .tc b) := by
  unfold afterTail; exact Pipeline.withArrays_of_ne spec1 c _ _ b hb
abbrev tailV : (c : Dev nD) → (b : Ref sig .tc) → Buf (Elt F) ((c : Thread nD τ).loc b) := fun c b => afterTail m ρ c b
theorem tail_arrays (c : Dev nD) (w : Fin cfg1.W) :
    (Tail.dat (aliasV m ρ) c).arrAt w cfg1.N = tailV m ρ c (Pipeline.arrRef spec1 w) :=
  (afterTail_arr m ρ c w).symm
theorem tail_rest (c : Dev nD) : ∀ b, b ∉ Finset.univ.image (Pipeline.arrRef spec1) → tailV m ρ c b = aliasV m ρ c b :=
  fun b hb => afterTail_of_ne m ρ c b fun w e => hb (Finset.mem_image.mpr ⟨w, Finset.mem_univ _, e⟩)

/-! ## The proof data of both calls, and what rides beside the buffers -/

/-- Neither call has a prefetched table. -/
abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => Bulk.dat (launchV m ρ) c
  | ⟨1, _⟩ => fun c => Tail.dat (aliasV m ρ) c
abbrev 𝒱₀ : Variants := Variants.none
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A stretch of host operations as an item, from contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The two host copies allocate nothing. -/
theorem copies_fresh : (hostOps1 : List (HloOp τ sig (Elt F))).Forall fun op => op.fresh = ∅ := by
  simp only [List.Forall]; repeat' constructor
/-- A buffer that outlives a call is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (afterTail m ρ c) ∗ ∃ r, prngReg c r)

/-! ## The two calls as items -/

set_option backward.isDefEq.respectTransparency.types false in
/-- The first call: entered from the launch contents, left at `afterCopy`. Its arrays are split out of the held
    buffers and put back at what the pipeline leaves; the generator register goes into the pipeline's invariant and
    comes back; nothing is owed. -/
def copyCall : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Bulk.body_obligation (launchV m ρ) c).loose
  hwaits := Pipeline.hwaits_of_owed_zero _ _ _ _ L lv 0 fun _ _ => rfl
  pre c := iprop(StableHlo.held (c : Thread nD τ) (Pipeline.ucRefs τ sig) (atLaunch m ρ c) ∗ R c)
  post c := iprop(StableHlo.held (c : Thread nD τ) (Pipeline.ucRefs τ sig) (afterCopy m ρ c) ∗ R c)
  X c := iprop(∃ r, prngReg c r)
  Y c := iprop(∃ r, prngReg c r)
  Z c := Pipeline.unscopedRest (Ix := Unit) (Name := ℕ) (U := UR sig nD τ) (Lvl := ℕ) spec0 c (launchV m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (launchV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (launchV m ρ c) (copyV m ρ c) ((pdats m ρ 0 c).arrAt · cfg0.N) (copy_arrays m ρ c) (copy_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `afterAlias`, left at `afterTail`, which the launch reads at the end. -/
def tailCall : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := Tail.body_obligation (aliasV m ρ) c
  hwaits := Pipeline.hwaits_of_owed_zero _ _ _ _ L lv 1 fun _ _ => rfl
  pre c := iprop(StableHlo.held (c : Thread nD τ) (Pipeline.ucRefs τ sig) (afterAlias m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (aliasV m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (aliasV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (aliasV m ρ c) (tailV m ρ c) ((pdats m ρ 1 c).arrAt · cfg1.N) (tail_arrays m ρ c) (tail_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .region (copyCall m ρ),
    .host (hseg hostOps1 hostOps1_sub copies_fresh (afterCopy m ρ)),
    .region (tailCall m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    buffer that outlives a call ends at `afterTail`. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = afterTail m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterTail m ρ c b)
    (hfin := fun c s' => by
      iintro ⟨⟨Hh, -⟩, HSI⟩
      unfold StableHlo.held
      imodintro
      iapply (pointsTo_read_all (Pipeline.ucRefs τ sig) (fun b => (((c : Thread nD τ)).1, b)) (afterTail m ρ c) s')
      isplitl [Hh] <;> iassumption)
    (hQ := fun s h c b hb => h c _ (mem_uc b hb))

end Cert.KernelIdeal.Append

end
-- ==== Proof.IdealKept.lean ====
/-
  What the last contents hold at the program's four arguments, and what the two host copies do. No item writes an
  argument: a call changes only its output arrays, and the host copies write only the second call's output buffers.
  So each argument, read off the last contents, walks back item by item to the launch memory. The host copies leave in
  each of the second call's output buffers what the first call left in the matching output array.
-/
import proofs.«107883_j56667798503562_2_alg».proof.Proof.IdealAppend

set_option maxRecDepth 16384

noncomputable section

namespace Cert.KernelIdeal.Append

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The host copies write the second call's two output buffers and nothing else. -/
theorem alias_keeps (c : Dev nD) (b : Ref sig .tc) (h0 : b ≠ main_v1_0) (h1 : b ≠ main_v1_1) :
    afterAlias m ρ c (Proc.devRef .tc b) = afterCopy m ρ c (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h0, StableHlo.devRef_ne_of_ne h1⟩))

/-- Each host copy leaves the first call's output in the second call's output buffer. -/
theorem alias_out0 (c : Dev nD) :
    afterAlias m ρ c (Proc.devRef .tc main_v1_0) = afterCopy m ρ c (Proc.devRef .tc main_v0_0) := by
  show StableHlo.after hostOps1 (afterCopy m ρ c) (Proc.devRef .tc main_v1_0) = _
  after_results
  rfl
theorem alias_out1 (c : Dev nD) :
    afterAlias m ρ c (Proc.devRef .tc main_v1_1) = afterCopy m ρ c (Proc.devRef .tc main_v0_1) := by
  show StableHlo.after hostOps1 (afterCopy m ρ c) (Proc.devRef .tc main_v1_1) = _
  after_results
  rfl

/-- The caches: input arrays of the first call, untouched by everything after it. -/
theorem kept_arg0 (c : Dev nD) : afterTail m ρ c (Proc.devRef .tc main_arg0) = m ((c : Thread nD τ).loc main_arg0) :=
  calc afterTail m ρ c (Proc.devRef .tc main_arg0)
    _ = afterAlias m ρ c (Proc.devRef .tc main_arg0) := afterTail_of_ne m ρ c main_arg0 (by decide)
    _ = afterCopy m ρ c (Proc.devRef .tc main_arg0) := alias_keeps m ρ c main_arg0 (by decide) (by decide)
    _ = atLaunch m ρ c (Proc.devRef .tc main_arg0) :=
        (afterCopy_arr m ρ c 0).trans (((Bulk.dat (launchV m ρ) c).arrAt_in 0 rfl _).trans (Bulk.A_eq (launchV m ρ) c 0))
    _ = m ((c : Thread nD τ).loc main_arg0) := rfl
theorem kept_arg1 (c : Dev nD) : afterTail m ρ c (Proc.devRef .tc main_arg1) = m ((c : Thread nD τ).loc main_arg1) :=
  calc afterTail m ρ c (Proc.devRef .tc main_arg1)
    _ = afterAlias m ρ c (Proc.devRef .tc main_arg1) := afterTail_of_ne m ρ c main_arg1 (by decide)
    _ = afterCopy m ρ c (Proc.devRef .tc main_arg1) := alias_keeps m ρ c main_arg1 (by decide) (by decide)
    _ = atLaunch m ρ c (Proc.devRef .tc main_arg1) :=
        (afterCopy_arr m ρ c 1).trans (((Bulk.dat (launchV m ρ) c).arrAt_in 1 rfl _).trans (Bulk.A_eq (launchV m ρ) c 1))
    _ = m ((c : Thread nD τ).loc main_arg1) := rfl

/-- The projection rows: input arrays of the second call, untouched by everything before it. -/
theorem kept_arg2 (c : Dev nD) : afterTail m ρ c (Proc.devRef .tc main_arg2) = m ((c : Thread nD τ).loc main_arg2) :=
  calc afterTail m ρ c (Proc.devRef .tc main_arg2)
    _ = afterAlias m ρ c (Proc.devRef .tc main_arg2) :=
        (afterTail_arr m ρ c 0).trans (((Tail.dat (aliasV m ρ) c).arrAt_in 0 rfl _).trans (Tail.A_eq (aliasV m ρ) c 0))
    _ = afterCopy m ρ c (Proc.devRef .tc main_arg2) := alias_keeps m ρ c main_arg2 (by decide) (by decide)
    _ = atLaunch m ρ c (Proc.devRef .tc main_arg2) := afterCopy_of_ne m ρ c main_arg2 (by decide)
    _ = m ((c : Thread nD τ).loc main_arg2) := rfl
theorem kept_arg3 (c : Dev nD) : afterTail m ρ c (Proc.devRef .tc main_arg3) = m ((c : Thread nD τ).loc main_arg3) :=
  calc afterTail m ρ c (Proc.devRef .tc main_arg3)
    _ = afterAlias m ρ c (Proc.devRef .tc main_arg3) :=
        (afterTail_arr m ρ c 1).trans (((Tail.dat (aliasV m ρ) c).arrAt_in 1 rfl _).trans (Tail.A_eq (aliasV m ρ) c 1))
    _ = afterCopy m ρ c (Proc.devRef .tc main_arg3) := alias_keeps m ρ c main_arg3 (by decide) (by decide)
    _ = atLaunch m ρ c (Proc.devRef .tc main_arg3) := afterCopy_of_ne m ρ c main_arg3 (by decide)
    _ = m ((c : Thread nD τ).loc main_arg3) := rfl

/-- The frame: every weakly fair execution terminates, nothing faulting, and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (by decide)).trans (kept_arg0 m ρ c), (h c main_arg1 (by decide)).trans (kept_arg1 m ρ c),
     (h c main_arg2 (by decide)).trans (kept_arg2 m ρ c), (h c main_arg3 (by decide)).trans (kept_arg3 m ρ c)⟩)
    (run m ρ)

end Cert.KernelIdeal.Append

end
-- ==== Proof.IdealValue.lean ====
/-
  The two results in closed form. Write a : [8, 4096, 2048] for a cache and p : [8, 1, 2048] for a projection row. The
  first call leaves in its output array the cache on rows 0 … 4095 — its 64 blocks are the 8 × 8 blocks of 512 rows, each
  written with the cache block at the same place — and does not touch row 4096. The host copy moves that array into the
  second call's output buffer. The second call's one block starts at row 4096 and is cut there to one row, which it writes
  with p. So the result is a on rows below 4096 and p on row 4096: the array `appended a p d` below, whose third argument
  (what row 4096 held before the second call) is never read.
-/
import proofs.«107883_j56667798503562_2_alg».proof.Proof.IdealKept
import Idealize.ShloMosaic.Lib.ValueIdx
import Idealize.ShloMosaic.Lib.Pipeline.Value

set_option maxRecDepth 16384

noncomputable section

namespace Cert.KernelIdeal.Append

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

theorem hz3 : (![0, 0, 0] : Fin 3 → Nat) = fun _ => 0 := funext fun a => by fin_cases a <;> rfl

/-- A projection row placed at every row of the long array. -/
def newRow (p : S8x1x2048.Idx → Elt F .f32) : S8x4097x2048.Idx → Elt F .f32 :=
  fun i => p (ix3 (n0 := 8) (n1 := 1) (n2 := 2048) (i 0) 0 (i 2))

/-- A cache placed on the rows below 4096 of the long array; `d` on the last row. -/
def cacheRows (a : S8x4096x2048.Idx → Elt F .f32) (d : S8x4097x2048.Idx → Elt F .f32) : S8x4097x2048.Idx → Elt F .f32 :=
  fun i => if h : (i 1).val < 4096 then a (ix3 (n0 := 8) (n1 := 4096) (n2 := 2048) (i 0) ⟨(i 1).val, h⟩ (i 2)) else d i

/-- The cache with the projection row appended: the row on row 4096, the cache below it. -/
def appended (a : S8x4096x2048.Idx → Elt F .f32) (p : S8x1x2048.Idx → Elt F .f32) (d : S8x4097x2048.Idx → Elt F .f32) :
    S8x4097x2048.Idx → Elt F .f32 :=
  fun i => if (i 1).val = 4096 then newRow p i else cacheRows a d i

section Calls

-- the buffers' contents when a call is entered
variable (V : (c : Dev nD) → (b : Ref sig .tc) → Buf (Elt F) ((c : Thread nD τ).loc b))

/-! ## The first call's two output arrays -/

/-- The printed index maps of the first call, decided over its 64 points: an input block and the output block it is
    copied to sit at the same block indices; the output's batch and row-block indices run over 0 … 7; what is moved is
    always a whole [1, 512, 2048] block. -/
theorem bulk_idx_2 : ∀ t : Fin cfg0.N, win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_2.index t (0 : Fin 3) ≤ 7 ∧ win0_2.index t (1 : Fin 3) ≤ 7 ∧ win0_2.index t (2 : Fin 3) = 0 :=
  (by decide +kernel : ∀ t : Fin grid0.N, _)
theorem bulk_moved_2 : ∀ t : Fin cfg0.N, win0_2.xsize (grid0.coords t) (0 : Fin 3) = 1
    ∧ win0_2.xsize (grid0.coords t) (1 : Fin 3) = 512 ∧ win0_2.xsize (grid0.coords t) (2 : Fin 3) = 2048 :=
  (by decide +kernel : ∀ t : Fin grid0.N, _)
/-- Every (batch, row-block) pair is some point's. -/
theorem bulk_onto_2 : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])
/-- What point `t` of the first call writes back is block `t` of the cache placed on the rows below 4096. -/
theorem bulk_flushed_2 (c : Dev nD) (t : Fin cfg0.N) (d : S8x4097x2048.Idx → Elt F .f32) :
    (Bulk.dat V c).flushed 2 t = ((cfg0.win 2).blk t).view.read (Elt F) (cacheRows (V c main_arg0) d) := by
  show (cfg0.win 2).cut (grid0.coords t) ((Bulk.dat V c).after 2 t) = _
  rw [Bulk.after_2]
  unfold Bulk.copied
  rw [View.canon_unit_zero hz3, View.ld_unit_zero (S := S1x512x2048) hz3]
  funext j
  obtain ⟨e0, e1, e2, b0, b1, b2⟩ := bulk_idx_2 t
  have hj1 : (j 1).val < 512 := lt_of_lt_of_le (j 1).isLt (win0_2.xsize_le (grid0.coords t) 1)
  have hrow : win0_2.index t (1 : Fin 3) * 512 + 1 * (j 1).val < 4096 := by omega
  show V c main_arg0 (((cfg0.win 0).blk t).view.emb ((cfg0.win 2).xinj (grid0.coords t) j))
      = cacheRows (V c main_arg0) d (((cfg0.win 2).blk t).view.emb j)
  unfold cacheRows
  rw [dif_pos (show ((((cfg0.win 2).blk t).view.emb j) 1).val < 4096 from hrow)]
  refine congrArg (V c main_arg0) ?_
  funext a; apply Fin.ext
  match a with
  | ⟨0, _⟩ => show win0_0.index t (0 : Fin 3) * 1 + 1 * (j 0).val = win0_2.index t (0 : Fin 3) * 1 + 1 * (j 0).val; omega
  | ⟨1, _⟩ => show win0_0.index t (1 : Fin 3) * 512 + 1 * (j 1).val = win0_2.index t (1 : Fin 3) * 512 + 1 * (j 1).val; omega
  | ⟨2, _⟩ => show win0_0.index t (2 : Fin 3) * 2048 + 1 * (j 2).val = win0_2.index t (2 : Fin 3) * 2048 + 1 * (j 2).val; omega

/-- An index of the long array is in point `t`'s block iff each coordinate is in the block's range on its axis. -/
theorem bulk_mem_2 (t : Fin cfg0.N) (i : S8x4097x2048.Idx) :
    i ∈ ((cfg0.win 2).blk t).view.set ↔ ∀ a : Fin 3, win0_2.index t a * S1x512x2048.size a ≤ (i a).val
      ∧ (i a).val < win0_2.index t a * S1x512x2048.size a + win0_2.xsize (grid0.coords t) a := by
  show i ∈ ((View.whole main_v0_0).slice (win0_2.rect t)).set ↔ _
  rw [View.set_slice_whole, Rect.mem_set_unit]
  exact Iff.rfl

/-- The first call's blocks cover exactly the rows below 4096. -/
theorem bulk_covered_2 (i : S8x4097x2048.Idx) :
    (∃ t : Fin cfg0.N, (cfg0.win 2).flush t = true ∧ i ∈ ((cfg0.win 2).blk t).view.set) ↔ (i 1).val < 4096 := by
  constructor
  · rintro ⟨t, -, hi⟩
    rw [bulk_mem_2] at hi
    have b1 : win0_2.index t (1 : Fin 3) * 512 ≤ (i 1).val
        ∧ (i 1).val < win0_2.index t (1 : Fin 3) * 512 + win0_2.xsize (grid0.coords t) (1 : Fin 3) := hi 1
    obtain ⟨-, -, -, -, q1, -⟩ := bulk_idx_2 t
    obtain ⟨-, m1, -⟩ := bulk_moved_2 t
    omega
  · intro h
    have hi0 : (i 0).val < 8 := (i 0).isLt
    have hi2 : (i 2).val < 2048 := (i 2).isLt
    obtain ⟨t, ht⟩ := bulk_onto_2 ⟨(i 0).val, hi0⟩ ⟨(i 1).val / 512, by omega⟩
    have q0 : win0_2.index t (0 : Fin 3) = (i 0).val := congrFun ht 0
    have q1 : win0_2.index t (1 : Fin 3) = (i 1).val / 512 := congrFun ht 1
    have q2 : win0_2.index t (2 : Fin 3) = 0 := congrFun ht 2
    obtain ⟨m0, m1, m2⟩ := bulk_moved_2 t
    refine ⟨t, flush0_2 t, ?_⟩
    rw [bulk_mem_2]
    intro a
    match a with
    | ⟨0, _⟩ => show win0_2.index t (0 : Fin 3) * 1 ≤ (i 0).val ∧ (i 0).val < win0_2.index t (0 : Fin 3) * 1 + win0_2.xsize (grid0.coords t) (0 : Fin 3); omega
    | ⟨1, _⟩ => show win0_2.index t (1 : Fin 3) * 512 ≤ (i 1).val ∧ (i 1).val < win0_2.index t (1 : Fin 3) * 512 + win0_2.xsize (grid0.coords t) (1 : Fin 3); omega
    | ⟨2, _⟩ => show win0_2.index t (2 : Fin 3) * 2048 ≤ (i 2).val ∧ (i 2).val < win0_2.index t (2 : Fin 3) * 2048 + win0_2.xsize (grid0.coords t) (2 : Fin 3); omega

/-- The first call's output array after its run: the cache on the rows below 4096, the last row as the call found it. -/
theorem bulk_final_2 (c : Dev nD) :
    (Bulk.dat V c).arrAt 2 cfg0.N = cacheRows (V c main_arg0) (V c main_v0_0) := by
  funext i
  rw [(Bulk.dat V c).arrAt_eq_piecewise 2 _ (fun t _ => bulk_flushed_2 V c t (V c main_v0_0)) i, Bulk.A_eq]
  by_cases h : (i 1).val < 4096
  · rw [if_pos ((bulk_covered_2 i).mpr h)]
  · rw [if_neg (fun hc => h ((bulk_covered_2 i).mp hc))]
    unfold cacheRows; rw [dif_neg h]

/-- The printed index maps of the first call, decided over its 64 points: an input block and the output block it is
    copied to sit at the same block indices; the output's batch and row-block indices run over 0 … 7; what is moved is
    always a whole [1, 512, 2048] block. -/
theorem bulk_idx_3 : ∀ t : Fin cfg0.N, win0_1.index t (0 : Fin 3) = win0_3.index t (0 : Fin 3)
    ∧ win0_1.index t (1 : Fin 3) = win0_3.index t (1 : Fin 3)
    ∧ win0_1.index t (2 : Fin 3) = win0_3.index t (2 : Fin 3)
    ∧ win0_3.index t (0 : Fin 3) ≤ 7 ∧ win0_3.index t (1 : Fin 3) ≤ 7 ∧ win0_3.index t (2 : Fin 3) = 0 :=
  (by decide +kernel : ∀ t : Fin grid0.N, _)
theorem bulk_moved_3 : ∀ t : Fin cfg0.N, win0_3.xsize (grid0.coords t) (0 : Fin 3) = 1
    ∧ win0_3.xsize (grid0.coords t) (1 : Fin 3) = 512 ∧ win0_3.xsize (grid0.coords t) (2 : Fin 3) = 2048 :=
  (by decide +kernel : ∀ t : Fin grid0.N, _)
/-- Every (batch, row-block) pair is some point's. -/
theorem bulk_onto_3 : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])
/-- What point `t` of the first call writes back is block `t` of the cache placed on the rows below 4096. -/
theorem bulk_flushed_3 (c : Dev nD) (t : Fin cfg0.N) (d : S8x4097x2048.Idx → Elt F .f32) :
    (Bulk.dat V c).flushed 3 t = ((cfg0.win 3).blk t).view.read (Elt F) (cacheRows (V c main_arg1) d) := by
  show (cfg0.win 3).cut (grid0.coords t) ((Bulk.dat V c).after 3 t) = _
  rw [Bulk.after_3]
  unfold Bulk.copied
  rw [View.canon_unit_zero hz3, View.ld_unit_zero (S := S1x512x2048) hz3]
  funext j
  obtain ⟨e0, e1, e2, b0, b1, b2⟩ := bulk_idx_3 t
  have hj1 : (j 1).val < 512 := lt_of_lt_of_le (j 1).isLt (win0_3.xsize_le (grid0.coords t) 1)
  have hrow : win0_3.index t (1 : Fin 3) * 512 + 1 * (j 1).val < 4096 := by omega
  show V c main_arg1 (((cfg0.win 1).blk t).view.emb ((cfg0.win 3).xinj (grid0.coords t) j))
      = cacheRows (V c main_arg1) d (((cfg0.win 3).blk t).view.emb j)
  unfold cacheRows
  rw [dif_pos (show ((((cfg0.win 3).blk t).view.emb j) 1).val < 4096 from hrow)]
  refine congrArg (V c main_arg1) ?_
  funext a; apply Fin.ext
  match a with
  | ⟨0, _⟩ => show win0_1.index t (0 : Fin 3) * 1 + 1 * (j 0).val = win0_3.index t (0 : Fin 3) * 1 + 1 * (j 0).val; omega
  | ⟨1, _⟩ => show win0_1.index t (1 : Fin 3) * 512 + 1 * (j 1).val = win0_3.index t (1 : Fin 3) * 512 + 1 * (j 1).val; omega
  | ⟨2, _⟩ => show win0_1.index t (2 : Fin 3) * 2048 + 1 * (j 2).val = win0_3.index t (2 : Fin 3) * 2048 + 1 * (j 2).val; omega

/-- An index of the long array is in point `t`'s block iff each coordinate is in the block's range on its axis. -/
theorem bulk_mem_3 (t : Fin cfg0.N) (i : S8x4097x2048.Idx) :
    i ∈ ((cfg0.win 3).blk t).view.set ↔ ∀ a : Fin 3, win0_3.index t a * S1x512x2048.size a ≤ (i a).val
      ∧ (i a).val < win0_3.index t a * S1x512x2048.size a + win0_3.xsize (grid0.coords t) a := by
  show i ∈ ((View.whole main_v0_1).slice (win0_3.rect t)).set ↔ _
  rw [View.set_slice_whole, Rect.mem_set_unit]
  exact Iff.rfl

/-- The first call's blocks cover exactly the rows below 4096. -/
theorem bulk_covered_3 (i : S8x4097x2048.Idx) :
    (∃ t : Fin cfg0.N, (cfg0.win 3).flush t = true ∧ i ∈ ((cfg0.win 3).blk t).view.set) ↔ (i 1).val < 4096 := by
  constructor
  · rintro ⟨t, -, hi⟩
    rw [bulk_mem_3] at hi
    have b1 : win0_3.index t (1 : Fin 3) * 512 ≤ (i 1).val
        ∧ (i 1).val < win0_3.index t (1 : Fin 3) * 512 + win0_3.xsize (grid0.coords t) (1 : Fin 3) := hi 1
    obtain ⟨-, -, -, -, q1, -⟩ := bulk_idx_3 t
    obtain ⟨-, m1, -⟩ := bulk_moved_3 t
    omega
  · intro h
    have hi0 : (i 0).val < 8 := (i 0).isLt
    have hi2 : (i 2).val < 2048 := (i 2).isLt
    obtain ⟨t, ht⟩ := bulk_onto_3 ⟨(i 0).val, hi0⟩ ⟨(i 1).val / 512, by omega⟩
    have q0 : win0_3.index t (0 : Fin 3) = (i 0).val := congrFun ht 0
    have q1 : win0_3.index t (1 : Fin 3) = (i 1).val / 512 := congrFun ht 1
    have q2 : win0_3.index t (2 : Fin 3) = 0 := congrFun ht 2
    obtain ⟨m0, m1, m2⟩ := bulk_moved_3 t
    refine ⟨t, flush0_3 t, ?_⟩
    rw [bulk_mem_3]
    intro a
    match a with
    | ⟨0, _⟩ => show win0_3.index t (0 : Fin 3) * 1 ≤ (i 0).val ∧ (i 0).val < win0_3.index t (0 : Fin 3) * 1 + win0_3.xsize (grid0.coords t) (0 : Fin 3); omega
    | ⟨1, _⟩ => show win0_3.index t (1 : Fin 3) * 512 ≤ (i 1).val ∧ (i 1).val < win0_3.index t (1 : Fin 3) * 512 + win0_3.xsize (grid0.coords t) (1 : Fin 3); omega
    | ⟨2, _⟩ => show win0_3.index t (2 : Fin 3) * 2048 ≤ (i 2).val ∧ (i 2).val < win0_3.index t (2 : Fin 3) * 2048 + win0_3.xsize (grid0.coords t) (2 : Fin 3); omega

/-- The first call's output array after its run: the cache on the rows below 4096, the last row as the call found it. -/
theorem bulk_final_3 (c : Dev nD) :
    (Bulk.dat V c).arrAt 3 cfg0.N = cacheRows (V c main_arg1) (V c main_v0_1) := by
  funext i
  rw [(Bulk.dat V c).arrAt_eq_piecewise 3 _ (fun t _ => bulk_flushed_3 V c t (V c main_v0_1)) i, Bulk.A_eq]
  by_cases h : (i 1).val < 4096
  · rw [if_pos ((bulk_covered_3 i).mpr h)]
  · rw [if_neg (fun hc => h ((bulk_covered_3 i).mp hc))]
    unfold cacheRows; rw [dif_neg h]

/-! ## The second call's two output arrays -/

/-- What the one point of the second call writes back is its block of the projection row placed at every row. -/
theorem tail_flushed_4 (c : Dev nD) (t : Fin cfg1.N) :
    (Tail.dat V c).flushed 4 t = ((cfg1.win 4).blk t).view.read (Elt F) (newRow (V c main_arg2)) := by
  obtain rfl := fin_N1 t
  show (cfg1.win 4).cut (grid1.coords t1_0) ((Tail.dat V c).after 4 t1_0) = _
  rw [Tail.after_4]
  funext j
  have e1 : win1_4.xsize (grid1.coords t1_0) 1 = 1 := by decide +kernel
  have hj1 : (j 1).val = 0 := by
    have h := (j 1).isLt
    change (j 1).val < win1_4.xsize (grid1.coords t1_0) 1 at h
    omega
  show Tail.filled _ (Tail.blockAt V c 0 t1_0) ((cfg1.win 4).xinj (grid1.coords t1_0) j) = _
  unfold Tail.filled
  rw [View.canon_cons_of_not_mem _ _ (by
    rw [Rect.mem_set_unit]; intro hh
    have h1 := hh 1
    change 1 ≤ (j 1).val ∧ _ at h1
    omega)]
  have hy : (cfg1.win 4).xinj (grid1.coords t1_0) j
      = Tail.firstRow.emb (ix3 (n0 := 8) (n1 := 1) (n2 := 2048)
          ((cfg1.win 4).xinj (grid1.coords t1_0) j 0) 0 ((cfg1.win 4).xinj (grid1.coords t1_0) j 2)) := by
    funext a; apply Fin.ext; rw [Rect.emb_apply]
    match a with
    | ⟨0, _⟩ => show (j 0).val = 0 + 1 * (j 0).val; omega
    | ⟨1, _⟩ => show (j 1).val = 0 + 1 * 0; omega
    | ⟨2, _⟩ => show (j 2).val = 0 + 1 * (j 2).val; omega
  rw [hy, View.canon_cons_emb, View.ld_unit_zero (S := S8x1x2048) hz3]
  have i0 : win1_0.index t1_0 (0 : Fin 3) = 0 ∧ win1_0.index t1_0 (1 : Fin 3) = 0 ∧ win1_0.index t1_0 (2 : Fin 3) = 0
      ∧ win1_4.index t1_0 (0 : Fin 3) = 0 ∧ win1_4.index t1_0 (2 : Fin 3) = 0 := by decide +kernel
  obtain ⟨a0, a1, a2, b0, b2⟩ := i0
  show V c main_arg2 (((cfg1.win 0).blk t1_0).view.emb (ix3 (n0 := 8) (n1 := 1) (n2 := 2048)
          ((cfg1.win 4).xinj (grid1.coords t1_0) j 0) 0 ((cfg1.win 4).xinj (grid1.coords t1_0) j 2)))
      = V c main_arg2 (ix3 (n0 := 8) (n1 := 1) (n2 := 2048) (((cfg1.win 4).blk t1_0).view.emb j 0) 0 (((cfg1.win 4).blk t1_0).view.emb j 2))
  refine congrArg (V c main_arg2) ?_
  funext a; apply Fin.ext
  match a with
  | ⟨0, _⟩ => show win1_0.index t1_0 (0 : Fin 3) * 8 + 1 * (j 0).val = win1_4.index t1_0 (0 : Fin 3) * 8 + 1 * (j 0).val; omega
  | ⟨1, _⟩ => show win1_0.index t1_0 (1 : Fin 3) * 1 + 1 * 0 = 0; omega
  | ⟨2, _⟩ => show win1_0.index t1_0 (2 : Fin 3) * 2048 + 1 * (j 2).val = win1_4.index t1_0 (2 : Fin 3) * 2048 + 1 * (j 2).val; omega

/-- The second call's one block, cut at the array's end, is exactly row 4096. -/
theorem tail_covered_4 (i : S8x4097x2048.Idx) :
    (∃ t : Fin cfg1.N, (cfg1.win 4).flush t = true ∧ i ∈ ((cfg1.win 4).blk t).view.set) ↔ (i 1).val = 4096 := by
  have hm : i ∈ ((cfg1.win 4).blk t1_0).view.set ↔ ∀ a : Fin 3, win1_4.index t1_0 a * S8x8x2048.size a ≤ (i a).val
      ∧ (i a).val < win1_4.index t1_0 a * S8x8x2048.size a + win1_4.xsize (grid1.coords t1_0) a := by
    show i ∈ ((View.whole main_v1_0).slice (win1_4.rect t1_0)).set ↔ _
    rw [View.set_slice_whole, Rect.mem_set_unit]
    exact Iff.rfl
  have f : win1_4.index t1_0 (0 : Fin 3) = 0 ∧ win1_4.index t1_0 (1 : Fin 3) = 512 ∧ win1_4.index t1_0 (2 : Fin 3) = 0
      ∧ win1_4.xsize (grid1.coords t1_0) (0 : Fin 3) = 8 ∧ win1_4.xsize (grid1.coords t1_0) (1 : Fin 3) = 1
      ∧ win1_4.xsize (grid1.coords t1_0) (2 : Fin 3) = 2048 := by decide +kernel
  obtain ⟨q0, q1, q2, m0, m1, m2⟩ := f
  have hi0 : (i 0).val < 8 := (i 0).isLt
  have hi2 : (i 2).val < 2048 := (i 2).isLt
  constructor
  · rintro ⟨t, -, hi⟩
    obtain rfl := fin_N1 t
    rw [hm] at hi
    have b1 : win1_4.index t1_0 (1 : Fin 3) * 8 ≤ (i 1).val
        ∧ (i 1).val < win1_4.index t1_0 (1 : Fin 3) * 8 + win1_4.xsize (grid1.coords t1_0) (1 : Fin 3) := hi 1
    omega
  · intro h
    refine ⟨t1_0, flush1_4 t1_0, ?_⟩
    rw [hm]
    intro a
    match a with
    | ⟨0, _⟩ => show win1_4.index t1_0 (0 : Fin 3) * 8 ≤ (i 0).val ∧ (i 0).val < win1_4.index t1_0 (0 : Fin 3) * 8 + win1_4.xsize (grid1.coords t1_0) (0 : Fin 3); omega
    | ⟨1, _⟩ => show win1_4.index t1_0 (1 : Fin 3) * 8 ≤ (i 1).val ∧ (i 1).val < win1_4.index t1_0 (1 : Fin 3) * 8 + win1_4.xsize (grid1.coords t1_0) (1 : Fin 3); omega
    | ⟨2, _⟩ => show win1_4.index t1_0 (2 : Fin 3) * 2048 ≤ (i 2).val ∧ (i 2).val < win1_4.index t1_0 (2 : Fin 3) * 2048 + win1_4.xsize (grid1.coords t1_0) (2 : Fin 3); omega

/-- The second call's output array after its run: the projection row on row 4096, every other row as the call found it. -/
theorem tail_final_4 (c : Dev nD) :
    (Tail.dat V c).arrAt 4 cfg1.N = fun i => if (i 1).val = 4096 then newRow (V c main_arg2) i else V c main_v1_0 i := by
  funext i
  rw [(Tail.dat V c).arrAt_eq_piecewise 4 _ (fun t _ => tail_flushed_4 V c t) i, Tail.A_eq]
  exact if_congr (tail_covered_4 i) rfl rfl

/-- What the one point of the second call writes back is its block of the projection row placed at every row. -/
theorem tail_flushed_5 (c : Dev nD) (t : Fin cfg1.N) :
    (Tail.dat V c).flushed 5 t = ((cfg1.win 5).blk t).view.read (Elt F) (newRow (V c main_arg3)) := by
  obtain rfl := fin_N1 t
  show (cfg1.win 5).cut (grid1.coords t1_0) ((Tail.dat V c).after 5 t1_0) = _
  rw [Tail.after_5]
  funext j
  have e1 : win1_5.xsize (grid1.coords t1_0) 1 = 1 := by decide +kernel
  have hj1 : (j 1).val = 0 := by
    have h := (j 1).isLt
    change (j 1).val < win1_5.xsize (grid1.coords t1_0) 1 at h
    omega
  show Tail.filled _ (Tail.blockAt V c 1 t1_0) ((cfg1.win 5).xinj (grid1.coords t1_0) j) = _
  unfold Tail.filled
  rw [View.canon_cons_of_not_mem _ _ (by
    rw [Rect.mem_set_unit]; intro hh
    have h1 := hh 1
    change 1 ≤ (j 1).val ∧ _ at h1
    omega)]
  have hy : (cfg1.win 5).xinj (grid1.coords t1_0) j
      = Tail.firstRow.emb (ix3 (n0 := 8) (n1 := 1) (n2 := 2048)
          ((cfg1.win 5).xinj (grid1.coords t1_0) j 0) 0 ((cfg1.win 5).xinj (grid1.coords t1_0) j 2)) := by
    funext a; apply Fin.ext; rw [Rect.emb_apply]
    match a with
    | ⟨0, _⟩ => show (j 0).val = 0 + 1 * (j 0).val; omega
    | ⟨1, _⟩ => show (j 1).val = 0 + 1 * 0; omega
    | ⟨2, _⟩ => show (j 2).val = 0 + 1 * (j 2).val; omega
  rw [hy, View.canon_cons_emb, View.ld_unit_zero (S := S8x1x2048) hz3]
  have i0 : win1_1.index t1_0 (0 : Fin 3) = 0 ∧ win1_1.index t1_0 (1 : Fin 3) = 0 ∧ win1_1.index t1_0 (2 : Fin 3) = 0
      ∧ win1_5.index t1_0 (0 : Fin 3) = 0 ∧ win1_5.index t1_0 (2 : Fin 3) = 0 := by decide +kernel
  obtain ⟨a0, a1, a2, b0, b2⟩ := i0
  show V c main_arg3 (((cfg1.win 1).blk t1_0).view.emb (ix3 (n0 := 8) (n1 := 1) (n2 := 2048)
          ((cfg1.win 5).xinj (grid1.coords t1_0) j 0) 0 ((cfg1.win 5).xinj (grid1.coords t1_0) j 2)))
      = V c main_arg3 (ix3 (n0 := 8) (n1 := 1) (n2 := 2048) (((cfg1.win 5).blk t1_0).view.emb j 0) 0 (((cfg1.win 5).blk t1_0).view.emb j 2))
  refine congrArg (V c main_arg3) ?_
  funext a; apply Fin.ext
  match a with
  | ⟨0, _⟩ => show win1_1.index t1_0 (0 : Fin 3) * 8 + 1 * (j 0).val = win1_5.index t1_0 (0 : Fin 3) * 8 + 1 * (j 0).val; omega
  | ⟨1, _⟩ => show win1_1.index t1_0 (1 : Fin 3) * 1 + 1 * 0 = 0; omega
  | ⟨2, _⟩ => show win1_1.index t1_0 (2 : Fin 3) * 2048 + 1 * (j 2).val = win1_5.index t1_0 (2 : Fin 3) * 2048 + 1 * (j 2).val; omega

/-- The second call's one block, cut at the array's end, is exactly row 4096. -/
theorem tail_covered_5 (i : S8x4097x2048.Idx) :
    (∃ t : Fin cfg1.N, (cfg1.win 5).flush t = true ∧ i ∈ ((cfg1.win 5).blk t).view.set) ↔ (i 1).val = 4096 := by
  have hm : i ∈ ((cfg1.win 5).blk t1_0).view.set ↔ ∀ a : Fin 3, win1_5.index t1_0 a * S8x8x2048.size a ≤ (i a).val
      ∧ (i a).val < win1_5.index t1_0 a * S8x8x2048.size a + win1_5.xsize (grid1.coords t1_0) a := by
    show i ∈ ((View.whole main_v1_1).slice (win1_5.rect t1_0)).set ↔ _
    rw [View.set_slice_whole, Rect.mem_set_unit]
    exact Iff.rfl
  have f : win1_5.index t1_0 (0 : Fin 3) = 0 ∧ win1_5.index t1_0 (1 : Fin 3) = 512 ∧ win1_5.index t1_0 (2 : Fin 3) = 0
      ∧ win1_5.xsize (grid1.coords t1_0) (0 : Fin 3) = 8 ∧ win1_5.xsize (grid1.coords t1_0) (1 : Fin 3) = 1
      ∧ win1_5.xsize (grid1.coords t1_0) (2 : Fin 3) = 2048 := by decide +kernel
  obtain ⟨q0, q1, q2, m0, m1, m2⟩ := f
  have hi0 : (i 0).val < 8 := (i 0).isLt
  have hi2 : (i 2).val < 2048 := (i 2).isLt
  constructor
  · rintro ⟨t, -, hi⟩
    obtain rfl := fin_N1 t
    rw [hm] at hi
    have b1 : win1_5.index t1_0 (1 : Fin 3) * 8 ≤ (i 1).val
        ∧ (i 1).val < win1_5.index t1_0 (1 : Fin 3) * 8 + win1_5.xsize (grid1.coords t1_0) (1 : Fin 3) := hi 1
    omega
  · intro h
    refine ⟨t1_0, flush1_5 t1_0, ?_⟩
    rw [hm]
    intro a
    match a with
    | ⟨0, _⟩ => show win1_5.index t1_0 (0 : Fin 3) * 8 ≤ (i 0).val ∧ (i 0).val < win1_5.index t1_0 (0 : Fin 3) * 8 + win1_5.xsize (grid1.coords t1_0) (0 : Fin 3); omega
    | ⟨1, _⟩ => show win1_5.index t1_0 (1 : Fin 3) * 8 ≤ (i 1).val ∧ (i 1).val < win1_5.index t1_0 (1 : Fin 3) * 8 + win1_5.xsize (grid1.coords t1_0) (1 : Fin 3); omega
    | ⟨2, _⟩ => show win1_5.index t1_0 (2 : Fin 3) * 2048 ≤ (i 2).val ∧ (i 2).val < win1_5.index t1_0 (2 : Fin 3) * 2048 + win1_5.xsize (grid1.coords t1_0) (2 : Fin 3); omega

/-- The second call's output array after its run: the projection row on row 4096, every other row as the call found it. -/
theorem tail_final_5 (c : Dev nD) :
    (Tail.dat V c).arrAt 5 cfg1.N = fun i => if (i 1).val = 4096 then newRow (V c main_arg3) i else V c main_v1_1 i := by
  funext i
  rw [(Tail.dat V c).arrAt_eq_piecewise 5 _ (fun t _ => tail_flushed_5 V c t) i, Tail.A_eq]
  exact if_congr (tail_covered_5 i) rfl rfl

end Calls

/-! ## The results, read off the last contents -/

variable (m : (ℓ : Loc nD τ sig) → Buf (Elt F) ℓ) (ρ : Dev nD → PrngReg)

/-- A projection row reaches the second call as launched. -/
theorem alias_arg2 (c : Dev nD) : aliasV m ρ c main_arg2 = m ((c : Thread nD τ).loc main_arg2) :=
  (alias_keeps m ρ c main_arg2 (by decide) (by decide)).trans (afterCopy_of_ne m ρ c main_arg2 (by decide))
theorem alias_arg3 (c : Dev nD) : aliasV m ρ c main_arg3 = m ((c : Thread nD τ).loc main_arg3) :=
  (alias_keeps m ρ c main_arg3 (by decide) (by decide)).trans (afterCopy_of_ne m ρ c main_arg3 (by decide))

/-- The first result: the first cache with the first projection row appended. -/
theorem result0 (c : Dev nD) : afterTail m ρ c (Proc.devRef .tc main_v1_0)
    = appended (m ((c : Thread nD τ).loc main_arg0)) (m ((c : Thread nD τ).loc main_arg2)) (m ((c : Thread nD τ).loc main_v0_0)) := by
  rw [afterTail_arr m ρ c 4, tail_final_4, alias_arg2]
  have e : aliasV m ρ c main_v1_0 = cacheRows (m ((c : Thread nD τ).loc main_arg0)) (m ((c : Thread nD τ).loc main_v0_0)) :=
    (alias_out0 m ρ c).trans ((afterCopy_arr m ρ c 2).trans (bulk_final_2 (launchV m ρ) c))
  rw [e]; rfl
/-- The second result: the second cache with the second projection row appended. -/
theorem result1 (c : Dev nD) : afterTail m ρ c (Proc.devRef .tc main_v1_1)
    = appended (m ((c : Thread nD τ).loc main_arg1)) (m ((c : Thread nD τ).loc main_arg3)) (m ((c : Thread nD τ).loc main_v0_1)) := by
  rw [afterTail_arr m ρ c 5, tail_final_5, alias_arg3]
  have e : aliasV m ρ c main_v1_1 = cacheRows (m ((c : Thread nD τ).loc main_arg1)) (m ((c : Thread nD τ).loc main_v0_1)) :=
    (alias_out1 m ρ c).trans ((afterCopy_arr m ρ c 3).trans (bulk_final_3 (launchV m ρ) c))
  rw [e]; rfl

/-- The run with both results named and the arguments unchanged. -/
theorem run_values : θ_run defs (onTc (τ := τ) (main (F := F))) ⟨m, fun _ => 0, ρ⟩ (fun r => ∀ c : Dev nD,
      r.2.mem ((c.tc : Thread nD τ).loc main_v1_0)
        = appended (m ((c : Thread nD τ).loc main_arg0)) (m ((c : Thread nD τ).loc main_arg2)) (m ((c : Thread nD τ).loc main_v0_0))
      ∧ r.2.mem ((c.tc : Thread nD τ).loc main_v1_1)
        = appended (m ((c : Thread nD τ).loc main_arg1)) (m ((c : Thread nD τ).loc main_arg3)) (m ((c : Thread nD τ).loc main_v0_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_v1_0 (by decide)).trans (result0 m ρ c), (h c main_v1_1 (by decide)).trans (result1 m ρ c),
     (h c main_arg0 (by decide)).trans (kept_arg0 m ρ c), (h c main_arg1 (by decide)).trans (kept_arg1 m ρ c),
     (h c main_arg2 (by decide)).trans (kept_arg2 m ρ c), (h c main_arg3 (by decide)).trans (kept_arg3 m ρ c)⟩)
    (run m ρ)

end Cert.KernelIdeal.Append

end
-- ==== Proof.RefAppend.lean ====
/-
  The reference computes each result as one concatenation along the row axis: the cache [8, 4096, 2048] followed by the
  projection row [8, 1, 2048]. Read at an index of the [8, 4097, 2048] result, a concatenation is its first piece where
  the row coordinate is below the first piece's 4096 rows, and its second piece, at that coordinate less 4096, otherwise.
  That is the array `appended` of the kernel's side: the row on row 4096, the cache below it.
-/
import proofs.«107883_j56667798503562_2_alg».proof.Proof.Gen.ReferenceIdeal.Read
import proofs.«107883_j56667798503562_2_alg».proof.Proof.IdealValue

noncomputable section

namespace Cert.ReferenceIdeal.RefValue

open Cert.ReferenceIdeal Cert.ReferenceIdeal.Gen
open Idealize.ShloMosaic Idealize.ShloMosaic.ValueIdx

variable {F : FTy → Type} [FloatOps F]

/-- The first result's concatenation is the first cache with its row appended, -/
theorem concat0 (a : S8x4096x2048.Idx → Elt F .f32) (p : S8x1x2048.Idx → Elt F .f32) (d : S8x4097x2048.Idx → Elt F .f32) :
    Read.val_main_v0 (F := F) a p = Cert.KernelIdeal.Append.appended a p d := by
  funext i
  unfold Read.val_main_v0 Cert.KernelIdeal.Append.appended
  have hi1 : (i 1).val < 4097 := (i 1).isLt
  by_cases h : (i 1).val = 4096
  · rw [if_pos h]
    unfold Cert.KernelIdeal.Append.newRow
    exact concatenate_pair_apply_right (1 : Fin 3) a p _ i rfl rfl (ix3 (n0 := 8) (n1 := 1) (n2 := 2048) (i 0) 0 (i 2))
      (fun b hb => by
        match b with
        | ⟨0, _⟩ => rfl
        | ⟨1, _⟩ => exact absurd rfl hb
        | ⟨2, _⟩ => rfl)
      (by show 0 + 4096 = (i 1).val; omega)
  · rw [if_neg h]
    have hlt : (i 1).val < 4096 := by omega
    unfold Cert.KernelIdeal.Append.cacheRows
    rw [dif_pos hlt]
    exact concatenate_pair_apply_left (1 : Fin 3) a p _ i rfl (ix3 (n0 := 8) (n1 := 4096) (n2 := 2048) (i 0) ⟨(i 1).val, hlt⟩ (i 2))
      (fun b => by
        match b with
        | ⟨0, _⟩ => rfl
        | ⟨1, _⟩ => rfl
        | ⟨2, _⟩ => rfl)

/-- and the second result's likewise. -/
theorem concat1 (a : S8x4096x2048.Idx → Elt F .f32) (p : S8x1x2048.Idx → Elt F .f32) (d : S8x4097x2048.Idx → Elt F .f32) :
    Read.val_main_v1 (F := F) a p = Cert.KernelIdeal.Append.appended a p d := by
  funext i
  unfold Read.val_main_v1 Cert.KernelIdeal.Append.appended
  have hi1 : (i 1).val < 4097 := (i 1).isLt
  by_cases h : (i 1).val = 4096
  · rw [if_pos h]
    unfold Cert.KernelIdeal.Append.newRow
    exact concatenate_pair_apply_right (1 : Fin 3) a p _ i rfl rfl (ix3 (n0 := 8) (n1 := 1) (n2 := 2048) (i 0) 0 (i 2))
      (fun b hb => by
        match b with
        | ⟨0, _⟩ => rfl
        | ⟨1, _⟩ => exact absurd rfl hb
        | ⟨2, _⟩ => rfl)
      (by show 0 + 4096 = (i 1).val; omega)
  · rw [if_neg h]
    have hlt : (i 1).val < 4096 := by omega
    unfold Cert.KernelIdeal.Append.cacheRows
    rw [dif_pos hlt]
    exact concatenate_pair_apply_left (1 : Fin 3) a p _ i rfl (ix3 (n0 := 8) (n1 := 4096) (n2 := 2048) (i 0) ⟨(i 1).val, hlt⟩ (i 2))
      (fun b => by
        match b with
        | ⟨0, _⟩ => rfl
        | ⟨1, _⟩ => rfl
        | ⟨2, _⟩ => rfl)

end Cert.ReferenceIdeal.RefValue

end
-- ==== Proof.lean ====
/-
  Appending one row to a key cache and to a value cache: the kernel (two pallas_calls) against `jnp.concatenate`.

  Both programs compute, for a cache a : [8, 4096, 2048] and a row p : [8, 1, 2048], the array [8, 4097, 2048] that is a on
  rows 0 … 4095 and p on row 4096 — once for the keys, once for the values. Nothing is added, multiplied or rounded: every
  element of a result is one element of an argument, so the two programs agree on all extended reals and the precondition
  (finite inputs) is never opened.

  The kernel. Its first call copies each cache in 64 blocks of 512 rows into rows 0 … 4095 of a [8, 4097, 2048] array; two
  host copies move those arrays into the buffers the second call works on; the second call has one grid point and one block
  per array, rows 4096 … 4103, of which only row 4096 is inside the array: the transfer is cut to that row. The body fills
  the whole eight-row staging buffer with the projection row, and the cut write-back puts its first row on row 4096.
  Because a block overhangs its array, what a staging buffer holds past the array's end is never stated: the proof speaks
  only of the part of a buffer a transfer moves (Proof/…TailRow). The two calls are run one after the other from the launch
  memory (Proof/…Append), the arguments are read back unchanged (Proof/…Kept), and the two results are read in closed form
  (Proof/IdealValue). The word-level kernel needs only its frame, which is the same argument read at the word-level
  instance (the Bits… modules are the Ideal… ones at that program).

  The reference. Its run is two concatenations (the generated run of the reference), each equal to the same closed form
  index by index (Proof/RefAppend).

  Read over the extended reals the kernel is its word-level text unchanged (no operation was rewritten), so there is
  nothing to preserve between the two.
-/
import proofs.«107883_j56667798503562_2_alg».proof.Defs
import proofs.«107883_j56667798503562_2_alg».proof.Proof.Gen.Kernel
import proofs.«107883_j56667798503562_2_alg».proof.Proof.Gen.KernelIdeal
import proofs.«107883_j56667798503562_2_alg».proof.Proof.Gen.ReferenceIdeal
import proofs.«107883_j56667798503562_2_alg».proof.Proof.Gen.Pre_finite_inputs
import proofs.«107883_j56667798503562_2_alg».proof.Proof.Gen.ReferenceIdeal.Run
import proofs.«107883_j56667798503562_2_alg».proof.Proof.BitsKept
import proofs.«107883_j56667798503562_2_alg».proof.Proof.IdealValue
import proofs.«107883_j56667798503562_2_alg».proof.Proof.RefAppend
import Idealize.ShloMosaic.Adequacy
import Idealize.ShloMosaic.Init

noncomputable section

namespace Cert.Proof

open Idealize.ShloMosaic Idealize.SL.Sem

/-- The word-level kernel runs to the end, faults nowhere and leaves its four arguments as launched. -/
theorem frame_kernel : Cert.frame_Kernel :=
  fun m ρ _ => Cert.Kernel.Append.frame m ρ

/-- So does the kernel read over the extended reals. -/
theorem frame_kernelIdeal : Cert.frame_KernelIdeal :=
  fun m ρ _ => Cert.KernelIdeal.Append.frame m ρ

/-- The reference's frame is its run with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- No operation was rewritten between the word-level kernel and its reading over the extended reals. -/
theorem preserves : Cert.preserves_Kernel_KernelIdeal := trivial

/-- From memories agreeing on the arguments both programs end with each cache followed by its projection row: the
    kernel by its two calls' write-backs, the reference by its concatenations. -/
theorem algebraic : Cert.algebraic_KernelIdeal_ReferenceIdeal := by
  intro m ρ m' ρ' _ hagree
  refine ⟨_, _, Cert.KernelIdeal.Append.run_values (F := Ideal) m ρ, ?_⟩
  refine (θ_run Cert.ReferenceIdeal.defs _ _).mono (fun r h c => ?_) (Cert.ReferenceIdeal.Value.run (F := Ideal) m' ρ')
  obtain ⟨h0, h1, k0, k1, k2, k3⟩ := h c
  obtain ⟨a0, a1, a2, a3⟩ := hagree c
  refine ⟨?_, ?_, k0, k1, k2, k3⟩
  · rw [h0, a0, a2]; exact Cert.ReferenceIdeal.RefValue.concat0 _ _ _
  · rw [h1, a1, a3]; exact Cert.ReferenceIdeal.RefValue.concat1 _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
